-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S768x64 : Shape := ⟨2, ![768, 64]⟩
abbrev S64 : Shape := ⟨1, ![64]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S768x64 .f32) (main_arg8 : FVec F S64 .f32) (main_v33 : IVec S_ 1) : IVec S_ 1 :=
  let main_v34 : FVec F S768x64 .f32 := Host.absf main_arg7
  let main_cst_12 : FVec F S_ .f32 := constant S_ .f32 0x7F800000#32
  let main_v35 : FVec F S768x64 .f32 := broadcastInDim S768x64 ![] bcast_S_S768x64 main_cst_12
  let main_v36 : IVec S768x64 1 := cmpf .olt main_v34 main_v35
  let main_c_13 : IVec S_ 1 := constantI S_ 1 1#1
  let main_v37 : IVec S_ 1 := (fun x v => Host.reduce IntOp.andi x v reducesTo_S768x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S768x64 .f32) (main_arg6 : FVec F S64 .f32) (main_arg7 : FVec F S768x64 .f32) (main_arg8 : FVec F S64 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x768 .f32) (main_arg1 : FVec F S4x4096x768 .f32) (main_arg2 : FVec F S4x4096x768 .f32) (main_arg3 : FVec F S768x64 .f32) (main_arg4 : FVec F S64 .f32) (main_arg5 : FVec F S768x64 .f32) (main_arg6 : FVec F S64 .f32) (main_arg7 : FVec F S768x64 .f32) (main_arg8 : FVec F S64 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S4x4096x768 .f32 := Host.absf main_arg1
  let main_cst_0 : FVec F S_ .f32 := constant S_ .f32 0x7F800000#32
  let main_v5 : FVec F S4x4096x768 .f32 := broadcastInDim S4x4096x768 ![] bcast_S_S4x4096x768 main_cst_0
  let main_v6 : IVec S4x4096x768 1 := cmpf .olt main_v4 main_v5
  let main_c_1 : IVec S_ 1 := constantI S_ 1 1#1
  let main_v7 : IVec S_ 1 := (fun x v => Host.reduce IntOp.andi x v reducesTo_S4x4096x768_S_d0_1_2 h_S_) main_v6 main_c_1
  let main_v8 : IVec S_ 1 := andi main_v3 main_v7
  let main_v9 : FVec F S4x4096x768 .f32 := Host.absf main_arg2
  let main_cst_2 : FVec F S_ .f32 := constant S_ .f32 0x7F800000#32
  let main_v10 : FVec F S4x4096x768 .f32 := broadcastInDim S4x4096x768 ![] bcast_S_S4x4096x768 main_cst_2
  let main_v11 : IVec S4x4096x768 1 := cmpf .olt main_v9 main_v10
  let main_c_3 : IVec S_ 1 := constantI S_ 1 1#1
  let main_v12 : IVec S_ 1 := (fun x v => Host.reduce IntOp.andi x v reducesTo_S4x4096x768_S_d0_1_2 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_arg7 main_arg8 main_v13 main_v16
-- ==== Kernel.lean ====
abbrev S4x4096x768 : Shape := ⟨3, ![4, 4096, 768]⟩
abbrev S768x64 : Shape := ⟨2, ![768, 64]⟩
abbrev S64 : Shape := ⟨1, ![64]⟩
abbrev S16384x768 : Shape := ⟨2, ![16384, 768]⟩
abbrev S1x64 : Shape := ⟨2, ![1, 64]⟩
abbrev S16384x128 : Shape := ⟨2, ![16384, 128]⟩
abbrev S2048x768 : Shape := ⟨2, ![2048, 768]⟩
abbrev S2048x128 : Shape := ⟨2, ![2048, 128]⟩
abbrev S2048x64 : Shape := ⟨2, ![2048, 64]⟩
abbrev S16384x64 : Shape := ⟨2, ![16384, 64]⟩
abbrev S4x4096x64 : Shape := ⟨3, ![4, 4096, 64]⟩
abbrev S1x512x768 : Shape := ⟨3, ![1, 512, 768]⟩
abbrev S1x4096x64 : Shape := ⟨3, ![1, 4096, 64]⟩
abbrev S1x512x64 : Shape := ⟨3, ![1, 512, 64]⟩
abbrev S512x768 : Shape := ⟨2, ![512, 768]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x64, .f32⟩
  | .hbm, ⟨8, _⟩ => ⟨S64, .f32⟩
  | .hbm, ⟨9, _⟩ => ⟨S16384x768, .f32⟩
  | .hbm, ⟨10, _⟩ => ⟨S16384x768, .f32⟩
  | .hbm, ⟨11, _⟩ => ⟨S1x64, .f32⟩
  | .hbm, ⟨12, _⟩ => ⟨S1x64, .f32⟩
  | .hbm, ⟨13, _⟩ => ⟨S16384x128, .f32⟩
  | .hbm, ⟨14, _⟩ => ⟨S16384x64, .f32⟩
  | .hbm, ⟨15, _⟩ => ⟨S16384x64, .f32⟩
  | .hbm, ⟨16, _⟩ => ⟨S4x4096x64, .f32⟩
  | .hbm, ⟨17, _⟩ => ⟨S4x4096x64, .f32⟩
  | .hbm, ⟨18, _⟩ => ⟨S1x64, .f32⟩
  | .hbm, ⟨19, _⟩ => ⟨S4x4096x64, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S768x64, .f32⟩
  | .local _ .vmem, ⟨5, _⟩ => ⟨S1x64, .f32⟩
  | .local _ .vmem, ⟨6, _⟩ => ⟨S768x64, .f32⟩
  | .local _ .vmem, ⟨7, _⟩ => ⟨S1x64, .f32⟩
  | .local _ .vmem, ⟨8, _⟩ => ⟨S2048x128, .f32⟩
  | .local _ .vmem, ⟨9, _⟩ => ⟨S2048x128, .f32⟩
  | .local _ .vmem, ⟨10, _⟩ => ⟨S1x512x768, .f32⟩
  | .local _ .vmem, ⟨11, _⟩ => ⟨S1x512x768, .f32⟩
  | .local _ .vmem, ⟨12, _⟩ => ⟨S768x64, .f32⟩
  | .local _ .vmem, ⟨13, _⟩ => ⟨S1x64, .f32⟩
  | .local _ .vmem, ⟨14, _⟩ => ⟨S1x4096x64, .f32⟩
  | .local _ .vmem, ⟨15, _⟩ => ⟨S1x4096x64, .f32⟩
  | .local _ .vmem, ⟨16, _⟩ => ⟨S1x4096x64, .f32⟩
  | .local _ .vmem, ⟨17, _⟩ => ⟨S1x4096x64, .f32⟩
  | .local _ .vmem, ⟨18, _⟩ => ⟨S1x512x64, .f32⟩
  | .local _ .vmem, ⟨19, _⟩ => ⟨S1x512x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x4096x768_S16384x768 : S4x4096x768.ShapeCasts S16384x768
  shapeCasts_S64_S1x64 : S64.ShapeCasts S1x64
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  concatenates_S2048x64_S2048x64_S2048x128_d1 : Shape.Concatenates [S2048x64, S2048x64] S2048x128 1
  inb_S2048x128_S2048x128_0_0 : ∀ a, (![0, 0] : Fin 2 → Nat) a + S2048x128.size a ≤ S2048x128.size a
  h_S2048x128 : 0 < S2048x128.numel
  slices_S16384x128_S16384x64_0_0 : S16384x128.Slices ![0, 0] S16384x64
  slices_S16384x128_S16384x64_0_64 : S16384x128.Slices ![0, 64] S16384x64
  shapeCasts_S16384x64_S4x4096x64 : S16384x64.ShapeCasts S4x4096x64
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  broadcasts_S1x64_S512x64 : S1x64.Broadcasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x768_S768x64_S2048x64_1_0_0_1_n_n_wf : DotDims.WF S2048x768 S768x64 S2048x64 [1] [0] [0] [1] [] []
  dot_S512x768_S768x64_S512x64_1_0_0_1_n_n_wf : DotDims.WF S512x768 S768x64 S512x64 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S16384x768.size a
  hwx0_1 : ∀ i : grid0.Coords, EltTy.bits .f32 = 32 ∨ (Rect.block (s := S16384x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x64.size a ≤ S768x64.size a
  hwx0_4 : ∀ i : grid0.Coords, EltTy.bits .f32 = 32 ∨ (Rect.block (s := S768x64) S768x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S16384x128.size a
  hwx0_6 : ∀ i : grid0.Coords, EltTy.bits .f32 = 32 ∨ (Rect.block (s := S16384x128) S2048x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S4x4096x768.size a
  hwx1_0 : ∀ i : grid1.Coords, EltTy.bits .f32 = 32 ∨ (Rect.block (s := S4x4096x768) S1x512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S4x4096x64.size a
  hwx1_3 : ∀ i : grid1.Coords, EltTy.bits .f32 = 32 ∨ (Rect.block (s := S4x4096x64) S1x4096x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x64.size a ≤ S4x4096x64.size a
  hwx1_4 : ∀ i : grid1.Coords, EltTy.bits .f32 = 32 ∨ (Rect.block (s := S4x4096x64) S1x4096x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x64.size a ≤ S4x4096x64.size a
  hwx1_5 : ∀ i : grid1.Coords, EltTy.bits .f32 = 32 ∨ (Rect.block (s := S4x4096x64) S1x512x64.size (cc1_transform_5 i) (hinb1_5 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S768x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x4096x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x4096x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S768x64 : Shape := ⟨2, ![768, 64]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x64, .f32⟩
  | .hbm, ⟨8, _⟩ => ⟨S64, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x768_S768x64_S4x4096x64_2_0_01_1_n_n_wf : DotDims.WF S4x4096x768 S768x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x768_S768x64_S4x4096x64_2_0_01_1_n_n : DotDims S4x4096x768 S768x64 S4x4096x64 where
  lhsContracting := [2]
  rhsContracting := [0]
  lhsNonContracting := [0, 1]
  rhsNonContracting := [1]
  lhsBatch := []
  rhsBatch := []
  wf := dot_S4x4096x768_S768x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.ProjectionBlock.lean ====
/-
  The body of the key/value projection, read at an index.

  A block of `a` input rows `x : [a, 768]`, multiplied by a weight matrix `w : [768, 64]` into a zero accumulator and
  added to a bias row `β : [1, 64]` broadcast down the rows, has at `(r, e)` the number
  `(∑ m, x (r, m) · w (m, e)) + β (0, e)`: at the ideal values the narrowing of the factors before the product is the
  identity and the product is an exact sum.

  The body computes two such blocks, one from the key rows and one from the value rows, and joins them along the columns:
  column `e < 64` of the joined block is column `e` of the first, column `64 + e` is column `e` of the second.
-/
import proofs.«136614_j29643864277600_2_alg».proof.Proof.Gen.KernelIdeal.Skeleton
import proofs.«136614_j29643864277600_2_alg».proof.Proof.LibPlainProduct
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Blocks

open Idealize.ShloMosaic Idealize.ShloMosaic.ValueIdx Cert.KernelIdeal Cert.KernelIdeal.Gen

/-- One projection block at `(r, e)`: the row of `x` against the column of `w`, plus the bias entry. -/
theorem projBlock_apply {a : ℕ} (x : FVec Ideal ⟨2, ![a, 768]⟩ .f32) (w : FVec Ideal ⟨2, ![768, 64]⟩ .f32)
    (β : FVec Ideal ⟨2, ![1, 64]⟩ .f32)
    (wf : DotDims.WF ⟨2, ![a, 768]⟩ ⟨2, ![768, 64]⟩ ⟨2, ![a, 64]⟩ [1] [0] [0] [1] [] [])
    (hb : (⟨2, ![1, 64]⟩ : Shape).Broadcasts ⟨2, ![a, 64]⟩) (hlt : FTy.bits .bf16 < FTy.bits .f32)
    (r : Fin a) (e : Fin 64) :
    addf (matmul (⟨[1], [0], [0], [1], [], [], wf⟩ : DotDims _ _ _) none (truncf .bf16 x hlt) (truncf .bf16 w hlt)
        (constant ⟨2, ![a, 64]⟩ .f32 0x00000000#32)) (broadcastTo ⟨2, ![a, 64]⟩ β hb) (ix2 r e)
      = (∑ m : Fin 768, x (ix2 r m) * w (ix2 m e)) + β (ix2 (0 : Fin 1) e) := by
  show FloatOps.matmul _ none (truncf .bf16 x hlt) (truncf .bf16 w hlt) (constant _ .f32 0x00000000#32) (ix2 r e)
      + broadcastTo ⟨2, ![a, 64]⟩ β hb (ix2 r e) = _
  rw [PlainProduct.matmul_nn_apply, broadcastTo_1b_ab_apply]
  rfl

/-- The key/value body's stored block, at a column of its first half: the key projection. -/
theorem kv_left (xk : Vec Ideal S2048x768 .f32) (wk : Vec Ideal S768x64 .f32) (βk : Vec Ideal S1x64 .f32)
    (xv : Vec Ideal S2048x768 .f32) (wv : Vec Ideal S768x64 .f32) (βv : Vec Ideal S1x64 .f32)
    (r : Fin 2048) (e : Fin 64) (q : Fin 128) (hq : q.val = e.val) :
    k0_pay1 xk wk βk xv wv βv (ix2 r q) = (∑ m : Fin 768, xk (ix2 r m) * wk (ix2 m e)) + βk (ix2 (0 : Fin 1) e) := by
  unfold k0_pay1
  refine (concatenate_pair_apply_left (t := S2048x128) (s₁ := S2048x64) (s₂ := S2048x64) (1 : Fin 2) _ _
    concatenates_S2048x64_S2048x64_S2048x128_d1 (ix2 r q) rfl (ix2 r e)
    (fun b => by match b with | ⟨0, _⟩ => rfl | ⟨1, _⟩ => exact hq.symm)).trans ?_
  rw [shapeCast_self, shapeCast_self]
  exact projBlock_apply xk wk βk _ _ _ r e

/-- The stored block at a column of its second half: the value projection. -/
theorem kv_right (xk : Vec Ideal S2048x768 .f32) (wk : Vec Ideal S768x64 .f32) (βk : Vec Ideal S1x64 .f32)
    (xv : Vec Ideal S2048x768 .f32) (wv : Vec Ideal S768x64 .f32) (βv : Vec Ideal S1x64 .f32)
    (r : Fin 2048) (e : Fin 64) (q : Fin 128) (hq : q.val = 64 + e.val) :
    k0_pay1 xk wk βk xv wv βv (ix2 r q) = (∑ m : Fin 768, xv (ix2 r m) * wv (ix2 m e)) + βv (ix2 (0 : Fin 1) e) := by
  unfold k0_pay1
  refine (concatenate_pair_apply_right (t := S2048x128) (s₁ := S2048x64) (s₂ := S2048x64) (1 : Fin 2) _ _
    concatenates_S2048x64_S2048x64_S2048x128_d1 (ix2 r q) rfl rfl (ix2 r e)
    (fun b hb => by match b with | ⟨0, _⟩ => rfl | ⟨1, _⟩ => exact absurd rfl hb)
    (by show e.val + 64 = q.val; omega)).trans ?_
  rw [shapeCast_self, shapeCast_self]
  exact projBlock_apply xv wv βv _ _ _ r e

end Cert.KernelIdeal.Blocks

end
-- ==== Proof.KVArray.lean ====
/-
  The first region's output array: the projected keys and values side by side.

  The region runs over 8 points; point `t` reads rows `2048 t … 2048 t + 2047` of the flattened key and value inputs
  and the whole weight matrices and bias rows, and writes back rows `2048 t …` of a `[16384, 128]` array.  Its blocks
  tile that array, so after the region the array holds, at `(R, q)`, the key projection of row `R` at feature `q` when
  `q < 64` and the value projection of row `R` at feature `q − 64` otherwise — whatever the buffers held at entry.
-/
import proofs.«136614_j29643864277600_2_alg».proof.Proof.Gen.KernelIdeal.Frame
import proofs.«136614_j29643864277600_2_alg».proof.Proof.ProjectionBlock
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen

/-- Entry `(R, q)` of the joined array of projected keys (columns below 64) and projected values (columns from 64). -/
def kvEntry (Xk Xv : Vec Ideal S16384x768 .f32) (Wk : Vec Ideal S768x64 .f32) (βk : Vec Ideal S1x64 .f32)
    (Wv : Vec Ideal S768x64 .f32) (βv : Vec Ideal S1x64 .f32) (R : Fin 16384) (q : Fin 128) : EReal :=
  if h : q.val < 64 then (∑ m : Fin 768, Xk (ix2 R m) * Wk (ix2 m ⟨q.val, h⟩)) + βk (ix2 (0 : Fin 1) ⟨q.val, h⟩)
  else (∑ m : Fin 768, Xv (ix2 R m) * Wv (ix2 m ⟨q.val - 64, by have := q.isLt; omega⟩))
    + βv (ix2 (0 : Fin 1) ⟨q.val - 64, by have := q.isLt; omega⟩)

/-- The joined array. -/
def kvArray (Xk Xv : Vec Ideal S16384x768 .f32) (Wk : Vec Ideal S768x64 .f32) (βk : Vec Ideal S1x64 .f32)
    (Wv : Vec Ideal S768x64 .f32) (βv : Vec Ideal S1x64 .f32) : Vec Ideal S16384x128 .f32 :=
  fun i => kvEntry Xk Xv Wk βk Wv βv (i 0) (i 1)

theorem zeros2 : (![0, 0] : Fin 2 → Nat) = fun _ => 0 := funext fun a => by fin_cases a <;> rfl

/-- The printed index maps over the 8 points: the two row-blocked inputs move with the output, every other block
    index is zero, and the output's row block stays below 8. -/
theorem kv_index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 7 :=
  (by decide +kernel : ∀ t : Fin grid0.N, _)

/-- Every row block is some point's. -/
theorem kv_index_onto : ∀ q0 : Fin 8, ∃ t : Fin cfg0.N, win0_6.index t = ![q0.val, 0] :=
  (by decide +kernel : ∀ q0 : Fin 8, ∃ t : Fin grid0.N, win0_6.index t = ![q0.val, 0])

section
variable (V : (c : Dev nD) → (b : Ref sig .tc) → Buf (Elt Ideal) ((c : Thread nD τ).loc b))

/-- WHAT POINT `t` WRITES BACK is block `t` of the joined array of the region's six input arrays. -/
theorem kv_flushed (c : Dev nD) (t : Fin cfg0.N) :
    (dat0 (F := Ideal) V c).flushed 6 t = ((cfg0.win 6).blk t).view.read (Elt Ideal)
      (kvArray (V c main_v0) (V c main_v1) (V c main_arg5) (V c main_v2) (V c main_arg7) (V c main_v3)) := by
  show (cfg0.win 6).cut (grid0.coords t) ((dat0 (F := Ideal) V c).after 6 t) = _
  rw [after0_6]
  unfold out0_6
  rw [View.canon_unit_zero zeros2]
  simp only [View.ld_unit_zero (S := S2048x768) zeros2, View.ld_unit_zero (S := S768x64) zeros2,
    View.ld_unit_zero (S := S1x64) zeros2]
  obtain ⟨e00, e01, e10, e11, e20, e21, e30, e31, e40, e41, e50, e51, e61, e6b⟩ := kv_index_facts t
  funext j
  obtain ⟨r, q, rfl⟩ : ∃ (r : Fin 2048) (q : Fin 128), j = ix2 r q := ⟨j 0, j 1, eq_ix2 j⟩
  show k0_pay1 (iblk0 V c 0 t) (iblk0 V c 2 t) (iblk0 V c 3 t) (iblk0 V c 1 t) (iblk0 V c 4 t) (iblk0 V c 5 t) (ix2 r q)
    = kvArray (V c main_v0) (V c main_v1) (V c main_arg5) (V c main_v2) (V c main_arg7) (V c main_v3)
        (((cfg0.win 6).blk t).view.emb (ix2 r q))
  have hr := r.isLt
  have hq := q.isLt
  -- the row of the whole array this block row is
  have hR : win0_6.index t (0 : Fin 2) * 2048 + r.val < 16384 := by omega
  have hemb : ((cfg0.win 6).blk t).view.emb (ix2 r q)
      = (ix2 (⟨win0_6.index t (0 : Fin 2) * 2048 + r.val, hR⟩ : Fin 16384) q : S16384x128.Idx) := by
    funext a; apply Fin.ext
    match a with
    | ⟨0, _⟩ => show win0_6.index t (0 : Fin 2) * 2048 + 1 * r.val = win0_6.index t (0 : Fin 2) * 2048 + r.val; omega
    | ⟨1, _⟩ => show win0_6.index t (1 : Fin 2) * 128 + 1 * q.val = q.val; omega
  rw [hemb]
  show _ = kvEntry (V c main_v0) (V c main_v1) (V c main_arg5) (V c main_v2) (V c main_arg7) (V c main_v3)
    ⟨win0_6.index t (0 : Fin 2) * 2048 + r.val, hR⟩ q
  -- the blocks the body loads, read where the whole arrays hold them
  have rd0 : ∀ m : Fin 768, iblk0 V c 0 t (ix2 r m) = V c main_v0 (ix2 (⟨win0_6.index t (0 : Fin 2) * 2048 + r.val, hR⟩ : Fin 16384) m) := fun m => by
    show V c main_v0 (((cfg0.win 0).blk t).view.emb (ix2 r m)) = _
    refine congrArg (V c main_v0) (funext fun a => Fin.ext ?_)
    match a with
    | ⟨0, _⟩ => show win0_0.index t (0 : Fin 2) * 2048 + 1 * r.val = win0_6.index t (0 : Fin 2) * 2048 + r.val; omega
    | ⟨1, _⟩ => show win0_0.index t (1 : Fin 2) * 768 + 1 * m.val = m.val; omega
  have rd1 : ∀ m : Fin 768, iblk0 V c 1 t (ix2 r m) = V c main_v1 (ix2 (⟨win0_6.index t (0 : Fin 2) * 2048 + r.val, hR⟩ : Fin 16384) m) := fun m => by
    show V c main_v1 (((cfg0.win 1).blk t).view.emb (ix2 r m)) = _
    refine congrArg (V c main_v1) (funext fun a => Fin.ext ?_)
    match a with
    | ⟨0, _⟩ => show win0_1.index t (0 : Fin 2) * 2048 + 1 * r.val = win0_6.index t (0 : Fin 2) * 2048 + r.val; omega
    | ⟨1, _⟩ => show win0_1.index t (1 : Fin 2) * 768 + 1 * m.val = m.val; omega
  have rd2 : ∀ (m : Fin 768) (e : Fin 64), iblk0 V c 2 t (ix2 m e) = V c main_arg5 (ix2 m e) := fun m e => by
    show V c main_arg5 (((cfg0.win 2).blk t).view.emb (ix2 m e)) = _
    refine congrArg (V c main_arg5) (funext fun a => Fin.ext ?_)
    match a with
    | ⟨0, _⟩ => show win0_2.index t (0 : Fin 2) * 768 + 1 * m.val = m.val; omega
    | ⟨1, _⟩ => show win0_2.index t (1 : Fin 2) * 64 + 1 * e.val = e.val; omega
  have rd3 : ∀ e : Fin 64, iblk0 V c 3 t (ix2 (0 : Fin 1) e) = V c main_v2 (ix2 (0 : Fin 1) e) := fun e => by
    show V c main_v2 (((cfg0.win 3).blk t).view.emb (ix2 (0 : Fin 1) e)) = _
    refine congrArg (V c main_v2) (funext fun a => Fin.ext ?_)
    match a with
    | ⟨0, _⟩ => show win0_3.index t (0 : Fin 2) * 1 + 1 * 0 = 0; omega
    | ⟨1, _⟩ => show win0_3.index t (1 : Fin 2) * 64 + 1 * e.val = e.val; omega
  have rd4 : ∀ (m : Fin 768) (e : Fin 64), iblk0 V c 4 t (ix2 m e) = V c main_arg7 (ix2 m e) := fun m e => by
    show V c main_arg7 (((cfg0.win 4).blk t).view.emb (ix2 m e)) = _
    refine congrArg (V c main_arg7) (funext fun a => Fin.ext ?_)
    match a with
    | ⟨0, _⟩ => show win0_4.index t (0 : Fin 2) * 768 + 1 * m.val = m.val; omega
    | ⟨1, _⟩ => show win0_4.index t (1 : Fin 2) * 64 + 1 * e.val = e.val; omega
  have rd5 : ∀ e : Fin 64, iblk0 V c 5 t (ix2 (0 : Fin 1) e) = V c main_v3 (ix2 (0 : Fin 1) e) := fun e => by
    show V c main_v3 (((cfg0.win 5).blk t).view.emb (ix2 (0 : Fin 1) e)) = _
    refine congrArg (V c main_v3) (funext fun a => Fin.ext ?_)
    match a with
    | ⟨0, _⟩ => show win0_5.index t (0 : Fin 2) * 1 + 1 * 0 = 0; omega
    | ⟨1, _⟩ => show win0_5.index t (1 : Fin 2) * 64 + 1 * e.val = e.val; omega
  unfold kvEntry
  by_cases h : q.val < 64
  · rw [dif_pos h]
    refine (Blocks.kv_left (iblk0 V c 0 t) (iblk0 V c 2 t) (iblk0 V c 3 t) (iblk0 V c 1 t) (iblk0 V c 4 t) (iblk0 V c 5 t)
      r ⟨q.val, h⟩ q rfl).trans ?_
    rw [rd3]
    exact congrArg (· + V c main_v2 (ix2 (0 : Fin 1) ⟨q.val, h⟩))
      (Finset.sum_congr rfl fun m _ => by rw [rd0, rd2])
  · rw [dif_neg h]
    refine (Blocks.kv_right (iblk0 V c 0 t) (iblk0 V c 2 t) (iblk0 V c 3 t) (iblk0 V c 1 t) (iblk0 V c 4 t) (iblk0 V c 5 t)
      r ⟨q.val - 64, by omega⟩ q (by show q.val = 64 + (q.val - 64); omega)).trans ?_
    rw [rd5]
    exact congrArg (· + V c main_v3 (ix2 (0 : Fin 1) ⟨q.val - 64, by omega⟩))
      (Finset.sum_congr rfl fun m _ => by rw [rd1, rd4])

/-- An index of the array is in point `t`'s block iff each coordinate is in the block's range on its axis. -/
theorem kv_mem_blk (t : Fin cfg0.N) (i : S16384x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v4).slice (win0_6.rect t)).set ↔ _
  rw [View.set_slice_whole, Rect.mem_set_unit]
  exact Iff.rfl

/-- Every index of the array lies in some point's block: row `R` in the block of point `R / 2048`. -/
theorem kv_cover (i : S16384x128.Idx) :
    ∃ t : Fin cfg0.N, (cfg0.win 6).flush t = true ∧ i ∈ ((cfg0.win 6).blk t).view.set := by
  have hi0 : (i 0).val < 16384 := (i 0).isLt
  have hi1 : (i 1).val < 128 := (i 1).isLt
  obtain ⟨t, ht⟩ := kv_index_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [kv_mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-- THE ARRAY after the region: the joined array of the six input arrays as the region found them. -/
theorem kv_final (c : Dev nD) :
    (dat0 (F := Ideal) V c).arrAt 6 cfg0.N
      = kvArray (V c main_v0) (V c main_v1) (V c main_arg5) (V c main_v2) (V c main_arg7) (V c main_v3) :=
  (dat0 (F := Ideal) V c).arrAt_eq_of_cover 6 _ (fun t _ => kv_flushed V c t) kv_cover

end

end Cert.KernelIdeal.Arrays

end
-- ==== Proof.LibSoftmaxLaw.lean ====
/-
  Softmax attention over one query row, on the extended reals, and the law that lets the normalisation be applied
  before or after the weighted sum of the values.

  For a query row `q`, keys `k j` and a scale `c` the scores are `s j = (∑ d, q d · k j d) · c`; the weight of key `j`
  is `exp (s j − M)` with `M` the largest score (folded from `-∞`), and the row's result is the weighted sum of the
  values divided by the sum of the weights.  Dividing every weight first and summing afterwards gives the same number
  whenever the scores and the values are real: then `M` is real, every weight is a positive real, their sum is a positive
  real, and over the reals division distributes over the sum.  (At infinite entries it need not: the extended reals do not
  distribute.)
-/
import Idealize.ShloMosaic.PureOps.Ideal

noncomputable section

namespace Cert.Softmax

open Idealize.ShloMosaic

variable {J D : Type} [Fintype J] [Fintype D]

/-- The scaled scores of one query row against every key: `(∑ d, q d · k j d) · c`. -/
def scores (c : EReal) (q : D → EReal) (k : J → D → EReal) : J → EReal :=
  fun j => (∑ d, q d * k j d) * c

/-- The largest score, folded from `b` (the programs fold from `-∞`). -/
def top (b : EReal) (s : J → EReal) : EReal := Finset.univ.fold max b s

/-- The unnormalised weight of key `j`: `exp (s j − top)`. -/
def weight (b : EReal) (s : J → EReal) (j : J) : EReal := Ideal.exp (s j - top b s)

/-- The weighted sum of the values, normalised AFTER the sum. -/
def attnAfter (b : EReal) (s v : J → EReal) : EReal :=
  Ideal.div (∑ j, weight b s j * v j) (∑ j, weight b s j)

/-- The weighted sum of the values, every weight normalised BEFORE the sum. -/
def attnBefore (b : EReal) (s v : J → EReal) : EReal :=
  ∑ j, Ideal.div (weight b s j) (∑ j', weight b s j') * v j

/-- The coercion of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding the maximum from `b` and then taking the maximum with `b` once more changes nothing. -/
theorem max_top (b : EReal) (s : J → EReal) : max b (top b s) = top b s :=
  max_eq_right ((Finset.le_fold_max b).mpr (Or.inl le_rfl))

/-- Real factors give real scores. -/
theorem scores_coe (c : ℝ) (q : D → ℝ) (k : J → D → ℝ) (j : J) :
    scores (c : EReal) (fun d => (q d : EReal)) (fun j d => (k j d : EReal)) j
      = (((∑ d, q d * k j d) * c : ℝ) : EReal) := by
  unfold scores
  rw [EReal.coe_mul, coe_sum]
  exact congrArg (· * (c : EReal)) (Finset.sum_congr rfl fun d _ => (EReal.coe_mul _ _).symm)

/-- The largest of finitely many (at least one) real scores, folded from `-∞`, is a real number. -/
theorem top_coe [Nonempty J] (s : J → ℝ) : ∃ r : ℝ, top ⊥ (fun j => (s j : EReal)) = (r : EReal) := by
  have hb : ⊥ < top ⊥ (fun j => (s j : EReal)) := by
    unfold top
    rw [Finset.lt_fold_max]
    exact Or.inr ⟨Classical.arbitrary J, Finset.mem_univ _, EReal.bot_lt_coe _⟩
  have ht : top ⊥ (fun j => (s j : EReal)) < ⊤ := by
    unfold top
    rw [Finset.fold_max_lt]
    exact ⟨bot_lt_top, fun j _ => EReal.coe_lt_top _⟩
  exact ⟨_, (EReal.coe_toReal ht.ne hb.ne').symm⟩

/-- THE LAW: over real scores and real values, normalising after the weighted sum and normalising every weight before it
    give the same extended real. -/
theorem attnAfter_eq_attnBefore [Nonempty J] (s v : J → ℝ) :
    attnAfter ⊥ (fun j => (s j : EReal)) (fun j => (v j : EReal))
      = attnBefore ⊥ (fun j => (s j : EReal)) (fun j => (v j : EReal)) := by
  obtain ⟨r, hr⟩ := top_coe s
  have hw : ∀ j, weight ⊥ (fun j => (s j : EReal)) j = ((Real.exp (s j - r) : ℝ) : EReal) := fun j => by
    unfold weight
    rw [hr, ← EReal.coe_sub]
    rfl
  have hl : (∑ j, weight ⊥ (fun j => (s j : EReal)) j) = ((∑ j, Real.exp (s j - r) : ℝ) : EReal) := by
    rw [coe_sum]; exact Finset.sum_congr rfl fun j _ => hw j
  have hpos : (∑ j, Real.exp (s j - r) : ℝ) ≠ 0 :=
    (Finset.sum_pos (fun j _ => Real.exp_pos _) Finset.univ_nonempty).ne'
  unfold attnAfter attnBefore
  calc Ideal.div (∑ j, weight ⊥ (fun j => (s j : EReal)) j * (v j : EReal)) (∑ j, weight ⊥ (fun j => (s j : EReal)) j)
      = (∑ j, ((Real.exp (s j - r) * v j : ℝ) : EReal)) * ((1 / (∑ j, Real.exp (s j - r)) : ℝ) : EReal) := by
        rw [hl, Ideal.div_coe hpos]
        exact congrArg (· * ((1 / (∑ j, Real.exp (s j - r)) : ℝ) : EReal))
          (Finset.sum_congr rfl fun j _ => by rw [hw, EReal.coe_mul])
    _ = (((∑ j, Real.exp (s j - r) * v j) * (1 / (∑ j, Real.exp (s j - r))) : ℝ) : EReal) := by
        rw [← coe_sum, ← EReal.coe_mul]
    _ = ((∑ j, Real.exp (s j - r) * (1 / (∑ j, Real.exp (s j - r))) * v j : ℝ) : EReal) := by
        congr 1
        rw [Finset.sum_mul]
        exact Finset.sum_congr rfl fun j _ => by ring
    _ = ∑ j, ((Real.exp (s j - r) * (1 / (∑ j, Real.exp (s j - r))) * v j : ℝ) : EReal) := coe_sum _ _
    _ = ∑ j, Ideal.div (weight ⊥ (fun j => (s j : EReal)) j) (∑ j', weight ⊥ (fun j => (s j : EReal)) j') * (v j : EReal) := by
        refine Finset.sum_congr rfl fun j _ => ?_
        rw [hl, Ideal.div_coe hpos, hw, EReal.coe_mul, EReal.coe_mul]

end Cert.Softmax

end
-- ==== Proof.Attention.lean ====
/-
  Projected scaled dot-product attention as ONE function of the nine argument arrays, index by index, on the
  extended reals.

  For a batch `b`, a row `n` and a feature `e`, a projection of an input `X : [4, 4096, 768]` by `W : [768, 64]` and
  `β : [64]` is `(∑ m, X (b, n, m) · W (m, e)) + β e`.  With `q`, `k`, `v` the projections of the queries, keys and
  values, the scores of query row `n` are `s j = (∑ d, q (b, n, d) · k (b, j, d)) · 1/8`, the weight of key `j` is
  `exp (s j − max s)`, and the entry `(b, n, e)` of the result is the weighted sum of `v (b, j, e)` divided by the sum of
  the weights.  Two arrangements of that last step are stated: the division AFTER the weighted sum, and every weight
  divided BEFORE it; over real arrays they are one number (the softmax law over the extended reals).
-/
import Idealize.ShloMosaic.PureOps.Ideal
import Idealize.ShloMosaic.Lib.ValueIdx
import proofs.«136614_j29643864277600_2_alg».proof.Proof.LibSoftmaxLaw

noncomputable section

namespace Cert.Attention

open Idealize.ShloMosaic Idealize.ShloMosaic.ValueIdx

/-- The shapes of an input, a weight matrix, a bias and the result. -/
abbrev SX : Shape := ⟨3, ![4, 4096, 768]⟩
abbrev SW : Shape := ⟨2, ![768, 64]⟩
abbrev SB : Shape := ⟨1, ![64]⟩
abbrev SO : Shape := ⟨3, ![4, 4096, 64]⟩

/-- An array all of whose entries are real numbers. -/
def IsReal {s : Shape} (X : s.Idx → EReal) : Prop := ∀ i, ∃ r : ℝ, X i = (r : EReal)

/-- The linear projection of row `(b, n)` of `X` onto feature `e`. -/
def proj (X : SX.Idx → EReal) (W : SW.Idx → EReal) (β : SB.Idx → EReal) (b : Fin 4) (n : Fin 4096) (e : Fin 64) : EReal :=
  (∑ m : Fin 768, X (ix3 b n m) * W (ix2 m e)) + β (ix1 e)

/-- The scale of the scores: the binary word of `0.125`. -/
def eighth : EReal := Ideal.ofBits .f32 0x3E000000#32

/-- The scaled scores of query row `(b, n)` against every key row of batch `b`. -/
def rowScores (Xq Xk : SX.Idx → EReal) (Wq : SW.Idx → EReal) (bq : SB.Idx → EReal) (Wk : SW.Idx → EReal) (bk : SB.Idx → EReal)
    (b : Fin 4) (n : Fin 4096) : Fin 4096 → EReal :=
  Softmax.scores eighth (fun d : Fin 64 => proj Xq Wq bq b n d) (fun (j : Fin 4096) (d : Fin 64) => proj Xk Wk bk b j d)

/-- Entry `(b, n, e)` of the result, the weighted sum of the values divided by the sum of the weights. -/
def after (Xq Xk Xv : SX.Idx → EReal) (Wq : SW.Idx → EReal) (bq : SB.Idx → EReal) (Wk : SW.Idx → EReal) (bk : SB.Idx → EReal)
    (Wv : SW.Idx → EReal) (bv : SB.Idx → EReal) (b : Fin 4) (n : Fin 4096) (e : Fin 64) : EReal :=
  Softmax.attnAfter ⊥ (rowScores Xq Xk Wq bq Wk bk b n) (fun j : Fin 4096 => proj Xv Wv bv b j e)

/-- The same entry with every weight divided by the sum of the weights before the weighted sum. -/
def before (Xq Xk Xv : SX.Idx → EReal) (Wq : SW.Idx → EReal) (bq : SB.Idx → EReal) (Wk : SW.Idx → EReal) (bk : SB.Idx → EReal)
    (Wv : SW.Idx → EReal) (bv : SB.Idx → EReal) (b : Fin 4) (n : Fin 4096) (e : Fin 64) : EReal :=
  Softmax.attnBefore ⊥ (rowScores Xq Xk Wq bq Wk bk b n) (fun j : Fin 4096 => proj Xv Wv bv b j e)

/-- The whole result array, in the first arrangement. -/
def result (Xq Xk Xv : SX.Idx → EReal) (Wq : SW.Idx → EReal) (bq : SB.Idx → EReal) (Wk : SW.Idx → EReal) (bk : SB.Idx → EReal)
    (Wv : SW.Idx → EReal) (bv : SB.Idx → EReal) : SO.Idx → EReal :=
  fun i => after Xq Xk Xv Wq bq Wk bk Wv bv (i 0) (i 1) (i 2)

/-! ## The constants the two programs spell -/

/-- The word of `0.125` denotes the real `1/8`. -/
theorem eighth_coe : eighth = ((1 / 8 : ℝ) : EReal) := by
  unfold eighth
  simp [Ideal.ofBits, Ideal.ieee, -EReal.coe_mul]; norm_num

/-- The word of `1.0` denotes `1`. -/
theorem ofBits_one : Ideal.ofBits .f32 0x3F800000#32 = ((1 : ℝ) : EReal) := by
  simp [Ideal.ofBits, Ideal.ieee, -EReal.coe_mul]; norm_num

/-- The word of `64.0` denotes the real `64`. -/
theorem ofBits_64 : Ideal.ofBits .f32 0x42800000#32 = ((64 : ℝ) : EReal) := by
  simp [Ideal.ofBits, Ideal.ieee, -EReal.coe_mul]; norm_num

/-- The word of `-inf` denotes `⊥`. -/
theorem ofBits_neg_inf : Ideal.ofBits .f32 0xFF800000#32 = (⊥ : EReal) := by
  simp [Ideal.ofBits, Ideal.ieee]

/-- The word of `+inf` denotes `⊤`. -/
theorem ofBits_pos_inf : Ideal.ofBits .f32 0x7F800000#32 = (⊤ : EReal) := by
  simp [Ideal.ofBits, Ideal.ieee]

/-- One divided by the square root of sixty-four is one eighth: `sqrt 64 = 8` since `8 · 8 = 64`. -/
theorem one_div_sqrt_64 :
    Ideal.div (Ideal.ofBits .f32 0x3F800000#32) (Ideal.sqrt (Ideal.ofBits .f32 0x42800000#32)) = eighth := by
  have h8 : Real.sqrt 64 = 8 := by
    rw [show (64 : ℝ) = 8 ^ 2 by norm_num]
    exact Real.sqrt_sq (by norm_num)
  have hs : Ideal.sqrt ((64 : ℝ) : EReal) = ((8 : ℝ) : EReal) := by
    show (if (64 : ℝ) < 0 then (⊥ : EReal) else ((Real.sqrt 64 : ℝ) : EReal)) = _
    rw [if_neg (by norm_num), h8]
  rw [ofBits_one, ofBits_64, hs, Ideal.div_coe (by norm_num : (8 : ℝ) ≠ 0), eighth_coe, ← EReal.coe_mul]
  norm_num

/-! ## Real arrays give real projections, and the two arrangements agree -/

/-- A projection of real arrays is real. -/
theorem proj_coe (x : SX.Idx → ℝ) (w : SW.Idx → ℝ) (β : SB.Idx → ℝ) (b : Fin 4) (n : Fin 4096) (e : Fin 64) :
    proj (fun i => (x i : EReal)) (fun i => (w i : EReal)) (fun i => (β i : EReal)) b n e
      = (((∑ m : Fin 768, x (ix3 b n m) * w (ix2 m e)) + β (ix1 e) : ℝ) : EReal) := by
  unfold proj
  rw [EReal.coe_add, Softmax.coe_sum]
  exact congrArg (· + (β (ix1 e) : EReal)) (Finset.sum_congr rfl fun m _ => (EReal.coe_mul _ _).symm)

/-- A real array is the coercion of its real parts. -/
theorem IsReal.eq_coe {s : Shape} {X : s.Idx → EReal} (h : IsReal X) : ∃ x : s.Idx → ℝ, X = fun i => (x i : EReal) := by
  choose x hx using h
  exact ⟨x, funext hx⟩

/-- THE LAW for this program: over real argument arrays, dividing after the weighted sum and dividing every weight
    before it give the same entry. -/
theorem after_eq_before {Xq Xk Xv : SX.Idx → EReal} {Wq : SW.Idx → EReal} {bq : SB.Idx → EReal} {Wk : SW.Idx → EReal}
    {bk : SB.Idx → EReal} {Wv : SW.Idx → EReal} {bv : SB.Idx → EReal}
    (hq : IsReal Xq) (hk : IsReal Xk) (hv : IsReal Xv) (hWq : IsReal Wq) (hbq : IsReal bq) (hWk : IsReal Wk)
    (hbk : IsReal bk) (hWv : IsReal Wv) (hbv : IsReal bv) (b : Fin 4) (n : Fin 4096) (e : Fin 64) :
    after Xq Xk Xv Wq bq Wk bk Wv bv b n e = before Xq Xk Xv Wq bq Wk bk Wv bv b n e := by
  obtain ⟨xq, rfl⟩ := hq.eq_coe
  obtain ⟨xk, rfl⟩ := hk.eq_coe
  obtain ⟨xv, rfl⟩ := hv.eq_coe
  obtain ⟨wq, rfl⟩ := hWq.eq_coe
  obtain ⟨βq, rfl⟩ := hbq.eq_coe
  obtain ⟨wk, rfl⟩ := hWk.eq_coe
  obtain ⟨βk, rfl⟩ := hbk.eq_coe
  obtain ⟨wv, rfl⟩ := hWv.eq_coe
  obtain ⟨βv, rfl⟩ := hbv.eq_coe
  unfold after before rowScores
  have hs : Softmax.scores eighth (fun d : Fin 64 => proj (fun i => (xq i : EReal)) (fun i => (wq i : EReal)) (fun i => (βq i : EReal)) b n d)
      (fun (j : Fin 4096) (d : Fin 64) => proj (fun i => (xk i : EReal)) (fun i => (wk i : EReal)) (fun i => (βk i : EReal)) b j d)
      = fun j => (((∑ d : Fin 64, ((∑ m : Fin 768, xq (ix3 b n m) * wq (ix2 m d)) + βq (ix1 d))
          * ((∑ m : Fin 768, xk (ix3 b j m) * wk (ix2 m d)) + βk (ix1 d))) * (1 / 8) : ℝ) : EReal) := by
    funext j
    rw [eighth_coe]
    simp only [proj_coe]
    exact Softmax.scores_coe (1 / 8 : ℝ) _ _ j
  have hv' : (fun j : Fin 4096 => proj (fun i => (xv i : EReal)) (fun i => (wv i : EReal)) (fun i => (βv i : EReal)) b j e)
      = fun j => (((∑ m : Fin 768, xv (ix3 b j m) * wv (ix2 m e)) + βv (ix1 e) : ℝ) : EReal) :=
    funext fun j => proj_coe xv wv βv b j e
  rw [hs, hv']
  exact Softmax.attnAfter_eq_attnBefore _ _

end Cert.Attention

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.AttentionBlock.lean ====
/-
  The attention body, read at an index.

  For one block of 512 query rows the body projects the rows (`q = x · Wq + bq`), multiplies them against all 4096
  key rows of the batch (`q · kᵀ`, the keys transposed first) and scales by the word of `0.125`; takes each row's
  maximum, subtracts it, exponentiates, sums each row, multiplies the exponentials against the 4096 value rows, and
  divides row `r` of that product by row `r`'s sum.  At the ideal values every narrowing of a factor is the identity
  and every product an exact sum, so entry `(r, e)` of the stored block is the weighted sum of the values divided by the
  sum of the weights, the weights being `exp (s j − max s)` of the scaled scores `s` of row `r`.
-/
import proofs.«136614_j29643864277600_2_alg».proof.Proof.ProjectionBlock
import proofs.«136614_j29643864277600_2_alg».proof.Proof.Attention
import proofs.«136614_j29643864277600_2_alg».proof.Proof.LibBroadcast
import proofs.«136614_j29643864277600_2_alg».proof.Proof.LibRowFolds

noncomputable section

namespace Cert.KernelIdeal.Blocks

open Idealize.ShloMosaic Idealize.ShloMosaic.ValueIdx Cert.KernelIdeal Cert.KernelIdeal.Gen

/-- The scaled scores of a block of query rows against the key rows: entry `(r, j)`. -/
theorem scoresBlock_apply (q : FVec Ideal S512x64 .f32) (K : FVec Ideal S4096x64 .f32) (r : Fin 512) (j : Fin 4096) :
    mulf (matmul dot_S512x64_S64x4096_S512x4096_1_0_0_1_n_n none (truncf .bf16 q bitsLt_bf16_f32)
        (transpose S64x4096 [1, 0] (truncf .bf16 K bitsLt_bf16_f32) transposes_S4096x64_p1_0_S64x4096)
        (constant S512x4096 .f32 0x00000000#32))
      (broadcast S512x4096 (Scalar.ofBits .f32 0x3E000000#32)) (ix2 r j)
      = (∑ d : Fin 64, q (ix2 r d) * K (ix2 j d)) * Ideal.ofBits .f32 0x3E000000#32 := by
  show FloatOps.matmul _ none (truncf .bf16 q bitsLt_bf16_f32) _ (constant _ .f32 0x00000000#32) (ix2 r j)
      * Ideal.ofBits .f32 0x3E000000#32 = _
  refine congrArg (· * Ideal.ofBits .f32 0x3E000000#32) ?_
  refine (PlainProduct.matmul_nn_apply _ none _ _ r j).trans (Finset.sum_congr rfl fun d _ => ?_)
  exact congrArg (q (ix2 r d) * ·) (transpose_ix2_apply (truncf .bf16 K bitsLt_bf16_f32) _ d j)

/-- The row maxima laid out as a column and broadcast along the rows: at `(r, j)` the maximum of row `r`. -/
theorem rowMax_apply (s : FVec Ideal S512x4096 .f32) (r : Fin 512) (j : Fin 4096) :
    broadcastTo S512x4096 (shapeCast S512x1 (multiReduction .maximumf [1] S512 s 0xFF800000#32 reduces_S512x4096_S512 (.inl rfl) rfl)
        shapeCasts_S512_S512x1) broadcasts_S512x1_S512x4096 (ix2 r j)
      = Softmax.top ⊥ (fun k : Fin 4096 => s (ix2 r k)) := by
  refine (Layout.broadcastTo_a1_ab_apply _ broadcasts_S512x1_S512x4096 r j).trans ?_
  refine (Layout.shapeCast_col_apply _ shapeCasts_S512_S512x1 r).trans ?_
  refine (RowFolds.laneMax_apply s 0xFF800000#32 reduces_S512x4096_S512 (.inl rfl) rfl r).trans ?_
  unfold Softmax.top
  rw [Attention.ofBits_neg_inf]

/-- The exponentials of the scores less their row's maximum: at `(r, j)` the weight of key `j` for row `r`. -/
theorem weights_apply (s : FVec Ideal S512x4096 .f32) (r : Fin 512) (j : Fin 4096) :
    exp (subf s (broadcastTo S512x4096 (shapeCast S512x1
        (multiReduction .maximumf [1] S512 s 0xFF800000#32 reduces_S512x4096_S512 (.inl rfl) rfl)
        shapeCasts_S512_S512x1) broadcasts_S512x1_S512x4096)) (ix2 r j)
      = Softmax.weight ⊥ (fun k : Fin 4096 => s (ix2 r k)) j := by
  show Ideal.exp (s (ix2 r j) - broadcastTo S512x4096 _ broadcasts_S512x1_S512x4096 (ix2 r j)) = _
  rw [rowMax_apply]
  rfl

/-- The row sums laid out as a column and broadcast along the 64 columns: at `(r, e)` the sum of row `r`. -/
theorem rowSum_apply (E : FVec Ideal S512x4096 .f32) (r : Fin 512) (e : Fin 64) :
    broadcastTo S512x64 (shapeCast S512x1 (multiReduction .add [1] S512 E 0x00000000#32 reduces_S512x4096_S512 (.inl rfl) rfl)
        shapeCasts_S512_S512x1) broadcasts_S512x1_S512x64 (ix2 r e)
      = ∑ k : Fin 4096, E (ix2 r k) := by
  refine (Layout.broadcastTo_a1_ab_apply _ broadcasts_S512x1_S512x64 r e).trans ?_
  refine (Layout.shapeCast_col_apply _ shapeCasts_S512_S512x1 r).trans ?_
  exact RowFolds.laneSum_apply E 0x00000000#32 reduces_S512x4096_S512 (.inl rfl) rfl r

/-- From the scores to the block's entry: the weighted sum of the values over the sum of the weights. -/
theorem softmaxTail_apply (s : FVec Ideal S512x4096 .f32) (V : FVec Ideal S4096x64 .f32) (r : Fin 512) (e : Fin 64) :
    divf (matmul dot_S512x4096_S4096x64_S512x64_1_0_0_1_n_n none
        (truncf .bf16 (exp (subf s (broadcastTo S512x4096 (shapeCast S512x1
          (multiReduction .maximumf [1] S512 s 0xFF800000#32 reduces_S512x4096_S512 (.inl rfl) rfl)
          shapeCasts_S512_S512x1) broadcasts_S512x1_S512x4096))) bitsLt_bf16_f32)
        (truncf .bf16 V bitsLt_bf16_f32) (constant S512x64 .f32 0x00000000#32))
      (broadcastTo S512x64 (shapeCast S512x1 (multiReduction .add [1] S512
          (exp (subf s (broadcastTo S512x4096 (shapeCast S512x1
            (multiReduction .maximumf [1] S512 s 0xFF800000#32 reduces_S512x4096_S512 (.inl rfl) rfl)
            shapeCasts_S512_S512x1) broadcasts_S512x1_S512x4096)))
          0x00000000#32 reduces_S512x4096_S512 (.inl rfl) rfl) shapeCasts_S512_S512x1) broadcasts_S512x1_S512x64) (ix2 r e)
      = Softmax.attnAfter ⊥ (fun k : Fin 4096 => s (ix2 r k)) (fun k : Fin 4096 => V (ix2 k e)) := by
  unfold Softmax.attnAfter
  refine congrArg₂ Ideal.div ?_ ?_
  · refine (PlainProduct.matmul_nn_apply _ none _ _ r e).trans (Finset.sum_congr rfl fun k _ => ?_)
    exact congrArg (· * V (ix2 k e)) (weights_apply s r k)
  · refine (rowSum_apply _ r e).trans (Finset.sum_congr rfl fun k _ => ?_)
    exact weights_apply s r k

/-- THE BODY'S STORED BLOCK at `(0, r, e)`, from the body's five loaded blocks. -/
theorem attn_apply (x : Vec Ideal S1x512x768 .f32) (w : Vec Ideal S768x64 .f32) (β : Vec Ideal S1x64 .f32)
    (k v : Vec Ideal S1x4096x64 .f32) (r : Fin 512) (e : Fin 64) :
    k1_pay1 x w β k v (ix3 (0 : Fin 1) r e)
      = Softmax.attnAfter ⊥
          (Softmax.scores Attention.eighth
            (fun d : Fin 64 => (∑ m : Fin 768, x (ix3 (0 : Fin 1) r m) * w (ix2 m d)) + β (ix2 (0 : Fin 1) d))
            (fun (j : Fin 4096) (d : Fin 64) => k (ix3 (0 : Fin 1) j d)))
          (fun j : Fin 4096 => v (ix3 (0 : Fin 1) j e)) := by
  unfold k1_pay1
  refine (shapeCast_ab_1ab_apply _ shapeCasts_S512x64_S1x512x64 (0 : Fin 1) r e).trans ?_
  refine (softmaxTail_apply _ _ r e).trans ?_
  refine congrArg₂ (Softmax.attnAfter ⊥) (funext fun j => ?_) (funext fun j => ?_)
  · refine (scoresBlock_apply _ _ r j).trans ?_
    unfold Softmax.scores Attention.eighth
    refine congrArg (· * Ideal.ofBits .f32 0x3E000000#32) (Finset.sum_congr rfl fun d _ => ?_)
    refine congrArg₂ (· * ·) ?_ (shapeCast_1ab_ab_apply k shapeCasts_S1x4096x64_S4096x64 j d)
    refine (projBlock_apply _ w _ _ broadcasts_S1x64_S512x64 bitsLt_bf16_f32 r d).trans ?_
    rw [shapeCast_self]
    exact congrArg (· + β (ix2 (0 : Fin 1) d))
      (Finset.sum_congr rfl fun m _ => congrArg (· * w (ix2 m d)) (shapeCast_1ab_ab_apply x shapeCasts_S1x512x768_S512x768 r m))
  · exact shapeCast_1ab_ab_apply v shapeCasts_S1x4096x64_S4096x64 j e

end Cert.KernelIdeal.Blocks

end
-- ==== Proof.AttentionArray.lean ====
/-
  The second region's output array: attention, one block of 512 query rows at a time.

  The region runs over 4 × 8 points; point `(b, i)` reads rows `512 i … 512 i + 511` of batch `b` of the queries, the
  whole query weight matrix and bias row, and all 4096 projected key rows and value rows of batch `b`, and writes back
  rows `512 i …` of batch `b` of a `[4, 4096, 64]` array.  Its blocks tile that array, so after the region entry
  `(b, n, e)` is the attention of query row `(b, n)` over the keys and values of batch `b`: the weighted sum of the values
  divided by the sum of the weights — whatever the buffers held at entry.
-/
import proofs.«136614_j29643864277600_2_alg».proof.Proof.KVArray
import proofs.«136614_j29643864277600_2_alg».proof.Proof.AttentionBlock

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen

/-- Entry `(b, n, e)` of the attention array, from the raw queries, their weight matrix and bias row, and the projected
    keys and values. -/
def attnEntry (Xq : Vec Ideal S4x4096x768 .f32) (Wq : Vec Ideal S768x64 .f32) (βq : Vec Ideal S1x64 .f32)
    (K Vv : Vec Ideal S4x4096x64 .f32) (b : Fin 4) (n : Fin 4096) (e : Fin 64) : EReal :=
  Softmax.attnAfter ⊥
    (Softmax.scores Attention.eighth
      (fun d : Fin 64 => (∑ m : Fin 768, Xq (ix3 b n m) * Wq (ix2 m d)) + βq (ix2 (0 : Fin 1) d))
      (fun (j : Fin 4096) (d : Fin 64) => K (ix3 b j d)))
    (fun j : Fin 4096 => Vv (ix3 b j e))

/-- The attention array. -/
def attnArray (Xq : Vec Ideal S4x4096x768 .f32) (Wq : Vec Ideal S768x64 .f32) (βq : Vec Ideal S1x64 .f32)
    (K Vv : Vec Ideal S4x4096x64 .f32) : Vec Ideal S4x4096x64 .f32 :=
  fun i => attnEntry Xq Wq βq K Vv (i 0) (i 1) (i 2)

theorem zeros3 : (![0, 0, 0] : Fin 3 → Nat) = fun _ => 0 := funext fun a => by fin_cases a <;> rfl

/-- The printed index maps over the 32 points: the query block moves with the output block, the key and value blocks
    with its batch, every other block index is zero, and the output's block indices stay in range. -/
theorem attn_index_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_5.index t (2 : Fin 3) = 0 ∧ win1_5.index t (0 : Fin 3) ≤ 3 ∧ win1_5.index t (1 : Fin 3) ≤ 7 :=
  (by decide +kernel : ∀ t : Fin grid1.N, _)

/-- Every block of the output is some point's. -/
theorem attn_index_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

section
variable (V : (c : Dev nD) → (b : Ref sig .tc) → Buf (Elt Ideal) ((c : Thread nD τ).loc b))

/-- WHAT POINT `t` WRITES BACK is block `t` of the attention array of the region's five input arrays. -/
theorem attn_flushed (c : Dev nD) (t : Fin cfg1.N) :
    (dat1 (F := Ideal) V c).flushed 5 t = ((cfg1.win 5).blk t).view.read (Elt Ideal)
      (attnArray (V c main_arg0) (V c main_arg3) (V c main_v9) (V c main_v7) (V c main_v8)) := by
  show (cfg1.win 5).cut (grid1.coords t) ((dat1 (F := Ideal) V c).after 5 t) = _
  rw [after1_5]
  unfold out1_5
  rw [View.canon_unit_zero zeros3]
  simp only [View.ld_unit_zero (S := S1x512x768) zeros3, View.ld_unit_zero (S := S768x64) zeros2,
    View.ld_unit_zero (S := S1x64) zeros2, View.ld_unit_zero (S := S1x4096x64) zeros3]
  obtain ⟨e00, e01, e02, e10, e11, e20, e21, e30, e31, e32, e40, e41, e42, e52, e5a, e5b⟩ := attn_index_facts t
  funext j
  obtain ⟨u, r, e, rfl⟩ : ∃ (u : Fin 1) (r : Fin 512) (e : Fin 64), j = ix3 u r e := ⟨j 0, j 1, j 2, eq_ix3 j⟩
  have hu : u = 0 := Subsingleton.elim _ _
  subst hu
  show k1_pay1 (iblk1 V c 0 t) (iblk1 V c 1 t) (iblk1 V c 2 t) (iblk1 V c 3 t) (iblk1 V c 4 t) (ix3 (0 : Fin 1) r e)
    = attnArray (V c main_arg0) (V c main_arg3) (V c main_v9) (V c main_v7) (V c main_v8)
        (((cfg1.win 5).blk t).view.emb (ix3 (0 : Fin 1) r e))
  have hr := r.isLt
  have he := e.isLt
  -- the batch and the row of the whole array this block row is
  have hB : win1_5.index t (0 : Fin 3) < 4 := by omega
  have hN : win1_5.index t (1 : Fin 3) * 512 + r.val < 4096 := by omega
  have hemb : ((cfg1.win 5).blk t).view.emb (ix3 (0 : Fin 1) r e)
      = (ix3 (⟨win1_5.index t (0 : Fin 3), hB⟩ : Fin 4) (⟨win1_5.index t (1 : Fin 3) * 512 + r.val, hN⟩ : Fin 4096) e : S4x4096x64.Idx) := by
    funext a; apply Fin.ext
    match a with
    | ⟨0, _⟩ => show win1_5.index t (0 : Fin 3) * 1 + 1 * 0 = win1_5.index t (0 : Fin 3); omega
    | ⟨1, _⟩ => show win1_5.index t (1 : Fin 3) * 512 + 1 * r.val = win1_5.index t (1 : Fin 3) * 512 + r.val; omega
    | ⟨2, _⟩ => show win1_5.index t (2 : Fin 3) * 64 + 1 * e.val = e.val; omega
  rw [hemb]
  show _ = attnEntry (V c main_arg0) (V c main_arg3) (V c main_v9) (V c main_v7) (V c main_v8)
    ⟨win1_5.index t (0 : Fin 3), hB⟩ ⟨win1_5.index t (1 : Fin 3) * 512 + r.val, hN⟩ e
  -- the blocks the body loads, read where the whole arrays hold them
  have rd0 : ∀ m : Fin 768, iblk1 V c 0 t (ix3 (0 : Fin 1) r m)
      = V c main_arg0 (ix3 (⟨win1_5.index t (0 : Fin 3), hB⟩ : Fin 4) (⟨win1_5.index t (1 : Fin 3) * 512 + r.val, hN⟩ : Fin 4096) m) := fun m => by
    show V c main_arg0 (((cfg1.win 0).blk t).view.emb (ix3 (0 : Fin 1) r m)) = _
    refine congrArg (V c main_arg0) (funext fun a => Fin.ext ?_)
    match a with
    | ⟨0, _⟩ => show win1_0.index t (0 : Fin 3) * 1 + 1 * 0 = win1_5.index t (0 : Fin 3); omega
    | ⟨1, _⟩ => show win1_0.index t (1 : Fin 3) * 512 + 1 * r.val = win1_5.index t (1 : Fin 3) * 512 + r.val; omega
    | ⟨2, _⟩ => show win1_0.index t (2 : Fin 3) * 768 + 1 * m.val = m.val; omega
  have rd1 : ∀ (m : Fin 768) (d : Fin 64), iblk1 V c 1 t (ix2 m d) = V c main_arg3 (ix2 m d) := fun m d => by
    show V c main_arg3 (((cfg1.win 1).blk t).view.emb (ix2 m d)) = _
    refine congrArg (V c main_arg3) (funext fun a => Fin.ext ?_)
    match a with
    | ⟨0, _⟩ => show win1_1.index t (0 : Fin 2) * 768 + 1 * m.val = m.val; omega
    | ⟨1, _⟩ => show win1_1.index t (1 : Fin 2) * 64 + 1 * d.val = d.val; omega
  have rd2 : ∀ d : Fin 64, iblk1 V c 2 t (ix2 (0 : Fin 1) d) = V c main_v9 (ix2 (0 : Fin 1) d) := fun d => by
    show V c main_v9 (((cfg1.win 2).blk t).view.emb (ix2 (0 : Fin 1) d)) = _
    refine congrArg (V c main_v9) (funext fun a => Fin.ext ?_)
    match a with
    | ⟨0, _⟩ => show win1_2.index t (0 : Fin 2) * 1 + 1 * 0 = 0; omega
    | ⟨1, _⟩ => show win1_2.index t (1 : Fin 2) * 64 + 1 * d.val = d.val; omega
  have rd3 : ∀ (j : Fin 4096) (d : Fin 64), iblk1 V c 3 t (ix3 (0 : Fin 1) j d)
      = V c main_v7 (ix3 (⟨win1_5.index t (0 : Fin 3), hB⟩ : Fin 4) j d) := fun j d => by
    show V c main_v7 (((cfg1.win 3).blk t).view.emb (ix3 (0 : Fin 1) j d)) = _
    refine congrArg (V c main_v7) (funext fun a => Fin.ext ?_)
    match a with
    | ⟨0, _⟩ => show win1_3.index t (0 : Fin 3) * 1 + 1 * 0 = win1_5.index t (0 : Fin 3); omega
    | ⟨1, _⟩ => show win1_3.index t (1 : Fin 3) * 4096 + 1 * j.val = j.val; omega
    | ⟨2, _⟩ => show win1_3.index t (2 : Fin 3) * 64 + 1 * d.val = d.val; omega
  have rd4 : ∀ (j : Fin 4096) (d : Fin 64), iblk1 V c 4 t (ix3 (0 : Fin 1) j d)
      = V c main_v8 (ix3 (⟨win1_5.index t (0 : Fin 3), hB⟩ : Fin 4) j d) := fun j d => by
    show V c main_v8 (((cfg1.win 4).blk t).view.emb (ix3 (0 : Fin 1) j d)) = _
    refine congrArg (V c main_v8) (funext fun a => Fin.ext ?_)
    match a with
    | ⟨0, _⟩ => show win1_4.index t (0 : Fin 3) * 1 + 1 * 0 = win1_5.index t (0 : Fin 3); omega
    | ⟨1, _⟩ => show win1_4.index t (1 : Fin 3) * 4096 + 1 * j.val = j.val; omega
    | ⟨2, _⟩ => show win1_4.index t (2 : Fin 3) * 64 + 1 * d.val = d.val; omega
  refine (Blocks.attn_apply (iblk1 V c 0 t) (iblk1 V c 1 t) (iblk1 V c 2 t) (iblk1 V c 3 t) (iblk1 V c 4 t) r e).trans ?_
  unfold attnEntry
  refine congrArg₂ (Softmax.attnAfter ⊥) ?_ (funext fun j => rd4 j e)
  refine congrArg₂ (Softmax.scores Attention.eighth) (funext fun d => ?_) (funext fun j => funext fun d => rd3 j d)
  rw [rd2]
  exact congrArg (· + V c main_v9 (ix2 (0 : Fin 1) d)) (Finset.sum_congr rfl fun m _ => by rw [rd0, rd1])

/-- An index of the array is in point `t`'s block iff each coordinate is in the block's range on its axis. -/
theorem attn_mem_blk (t : Fin cfg1.N) (i : S4x4096x64.Idx) :
    i ∈ ((cfg1.win 5).blk t).view.set ↔ ∀ a : Fin 3, win1_5.index t a * S1x512x64.size a ≤ (i a).val
      ∧ (i a).val < win1_5.index t a * S1x512x64.size a + S1x512x64.size a := by
  show i ∈ ((View.whole main_v10).slice (win1_5.rect t)).set ↔ _
  rw [View.set_slice_whole, Rect.mem_set_unit]
  exact Iff.rfl

/-- Every index of the array lies in some point's block: batch `b`, row `n` in the block of point `(b, n / 512)`. -/
theorem attn_cover (i : S4x4096x64.Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 64 := (i 2).isLt
  obtain ⟨t, ht⟩ := attn_index_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [attn_mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 64 ≤ (i 2).val ∧ (i 2).val < win1_5.index t (2 : Fin 3) * 64 + 64; omega

/-- THE ARRAY after the region: the attention array of the five input arrays as the region found them. -/
theorem attn_final (c : Dev nD) :
    (dat1 (F := Ideal) V c).arrAt 5 cfg1.N
      = attnArray (V c main_arg0) (V c main_arg3) (V c main_v9) (V c main_v7) (V c main_v8) :=
  (dat1 (F := Ideal) V c).arrAt_eq_of_cover 5 _ (fun t _ => attn_flushed V c t) attn_cover

end

end Cert.KernelIdeal.Arrays

end
-- ==== Proof.WholeArray.lean ====
/-
  The two regions composed: the kernel's result array is the specification's.

  Between the regions the program flattens the key and value inputs `[4, 4096, 768]` to `[16384, 768]` (row
  `4096 b + n` is row `(b, n)`), lays each bias vector out as one row, cuts the joined `[16384, 128]` array of the first
  region into its left and right halves and re-lays each half as `[4, 4096, 64]`.  So the projected key row `(b, j)` that
  the second region reads is the key projection of input row `(b, j)`, and likewise for the values; and the second
  region's array, entry by entry, is the attention of the specification with the division after the weighted sum.
-/
import proofs.«136614_j29643864277600_2_alg».proof.Proof.AttentionArray
import proofs.«136614_j29643864277600_2_alg».proof.Proof.Attention
import Idealize.ShloMosaic.Lib.ValueLayout

set_option maxRecDepth 16384

noncomputable section

namespace Cert.KernelIdeal.Arrays

open Idealize.ShloMosaic Idealize.ShloMosaic.ValueIdx
open Cert.KernelIdeal Cert.KernelIdeal.Gen

/-- Row `(b, n)` of an input flattened to `[16384, 768]` is row `4096 b + n`. -/
theorem flatRows_apply (X : Vec Ideal S4x4096x768 .f32) (b : Fin 4) (n : Fin 4096) (m : Fin 768)
    (R : Fin 16384) (hR : R.val = b.val * 4096 + n.val) :
    shapeCast S16384x768 X shapeCasts_S4x4096x768_S16384x768 (ix2 R m) = X (ix3 b n m) := by
  refine shapeCast_apply X shapeCasts_S4x4096x768_S16384x768 (ix2 R m) (ix3 b n m) ?_
  rw [Shape.rowMajor_val_three, Shape.rowMajor_val_two]
  show (b.val * 4096 + n.val) * 768 + m.val = R.val * 768 + m.val
  rw [hR]

/-- A bias vector laid out as one row: entry `(0, e)` is entry `e`. -/
theorem biasRow_apply (β : Vec Ideal S64 .f32) (e : Fin 64) :
    shapeCast S1x64 β shapeCasts_S64_S1x64 (ix2 (0 : Fin 1) e) = β (ix1 e) :=
  shapeCast_a_1a_apply β shapeCasts_S64_S1x64 (0 : Fin 1) e

section
variable (Xk Xv : Vec Ideal S4x4096x768 .f32) (Wk : Vec Ideal S768x64 .f32) (bk : Vec Ideal S64 .f32)
  (Wv : Vec Ideal S768x64 .f32) (bv : Vec Ideal S64 .f32)

/-- The joined array of the first region, from the program's own inputs. -/
abbrev joined : Vec Ideal S16384x128 .f32 :=
  kvArray (shapeCast S16384x768 Xk shapeCasts_S4x4096x768_S16384x768) (shapeCast S16384x768 Xv shapeCasts_S4x4096x768_S16384x768)
    Wk (shapeCast S1x64 bk shapeCasts_S64_S1x64) Wv (shapeCast S1x64 bv shapeCasts_S64_S1x64)

/-- The left half of the joined array, re-laid as `[4, 4096, 64]`: the projected keys. -/
theorem keyRows_apply (b : Fin 4) (j : Fin 4096) (d : Fin 64) :
    shapeCast S4x4096x64 (extractStridedSlice S16384x64 ![0, 0] (joined Xk Xv Wk bk Wv bv) slices_S16384x128_S16384x64_0_0)
        shapeCasts_S16384x64_S4x4096x64 (ix3 b j d)
      = Attention.proj Xk Wk bk b j d := by
  have hb := b.isLt
  have hj := j.isLt
  have hd := d.isLt
  have hR : b.val * 4096 + j.val < 16384 := by omega
  refine (shapeCast_apply _ shapeCasts_S16384x64_S4x4096x64 (ix3 b j d)
    (ix2 (⟨b.val * 4096 + j.val, hR⟩ : Fin 16384) d) (by
      rw [Shape.rowMajor_val_two, Shape.rowMajor_val_three]
      show (b.val * 4096 + j.val) * 64 + d.val = (b.val * 4096 + j.val) * 64 + d.val
      rfl)).trans ?_
  refine (extractStridedSlice_apply ![0, 0] _ slices_S16384x128_S16384x64_0_0
    (ix2 (⟨b.val * 4096 + j.val, hR⟩ : Fin 16384) d)
    (ix2 (⟨b.val * 4096 + j.val, hR⟩ : Fin 16384) (⟨d.val, by omega⟩ : Fin 128))
    (fun a => by match a with
      | ⟨0, _⟩ => show b.val * 4096 + j.val = 0 + (b.val * 4096 + j.val); omega
      | ⟨1, _⟩ => show d.val = 0 + d.val; omega)).trans ?_
  show kvEntry _ _ Wk _ Wv _ ⟨b.val * 4096 + j.val, hR⟩ ⟨d.val, by omega⟩ = _
  unfold kvEntry
  rw [dif_pos (show (⟨d.val, by omega⟩ : Fin 128).val < 64 from hd)]
  unfold Attention.proj
  refine congrArg₂ (· + ·) (Finset.sum_congr rfl fun m _ => ?_) (biasRow_apply bk d)
  exact congrArg (· * Wk (ix2 m d)) (flatRows_apply Xk b j m ⟨b.val * 4096 + j.val, hR⟩ rfl)

/-- The right half of the joined array, re-laid as `[4, 4096, 64]`: the projected values. -/
theorem valueRows_apply (b : Fin 4) (j : Fin 4096) (e : Fin 64) :
    shapeCast S4x4096x64 (extractStridedSlice S16384x64 ![0, 64] (joined Xk Xv Wk bk Wv bv) slices_S16384x128_S16384x64_0_64)
        shapeCasts_S16384x64_S4x4096x64 (ix3 b j e)
      = Attention.proj Xv Wv bv b j e := by
  have hb := b.isLt
  have hj := j.isLt
  have he := e.isLt
  have hR : b.val * 4096 + j.val < 16384 := by omega
  refine (shapeCast_apply _ shapeCasts_S16384x64_S4x4096x64 (ix3 b j e)
    (ix2 (⟨b.val * 4096 + j.val, hR⟩ : Fin 16384) e) (by
      rw [Shape.rowMajor_val_two, Shape.rowMajor_val_three]
      show (b.val * 4096 + j.val) * 64 + e.val = (b.val * 4096 + j.val) * 64 + e.val
      rfl)).trans ?_
  refine (extractStridedSlice_apply ![0, 64] _ slices_S16384x128_S16384x64_0_64
    (ix2 (⟨b.val * 4096 + j.val, hR⟩ : Fin 16384) e)
    (ix2 (⟨b.val * 4096 + j.val, hR⟩ : Fin 16384) (⟨64 + e.val, by omega⟩ : Fin 128))
    (fun a => by match a with
      | ⟨0, _⟩ => show b.val * 4096 + j.val = 0 + (b.val * 4096 + j.val); omega
      | ⟨1, _⟩ => show 64 + e.val = 64 + e.val; rfl)).trans ?_
  show kvEntry _ _ Wk _ Wv _ ⟨b.val * 4096 + j.val, hR⟩ ⟨64 + e.val, by omega⟩ = _
  unfold kvEntry
  rw [dif_neg (show ¬ (⟨64 + e.val, by omega⟩ : Fin 128).val < 64 from by show ¬ 64 + e.val < 64; omega)]
  unfold Attention.proj
  have hcol : (⟨(⟨64 + e.val, by omega⟩ : Fin 128).val - 64, by show 64 + e.val - 64 < 64; omega⟩ : Fin 64) = e :=
    Fin.ext (by show 64 + e.val - 64 = e.val; omega)
  rw [hcol]
  refine congrArg₂ (· + ·) (Finset.sum_congr rfl fun m _ => ?_) (biasRow_apply bv e)
  exact congrArg (· * Wv (ix2 m e)) (flatRows_apply Xv b j m ⟨b.val * 4096 + j.val, hR⟩ rfl)

end

/-- THE KERNEL'S RESULT ARRAY, as the two regions and the host operations between them leave it, is the
    specification's result of the nine inputs. -/
theorem whole_eq (Xq Xk Xv : Vec Ideal S4x4096x768 .f32) (Wq : Vec Ideal S768x64 .f32) (bq : Vec Ideal S64 .f32)
    (Wk : Vec Ideal S768x64 .f32) (bk : Vec Ideal S64 .f32) (Wv : Vec Ideal S768x64 .f32) (bv : Vec Ideal S64 .f32) :
    attnArray Xq Wq (shapeCast S1x64 bq shapeCasts_S64_S1x64)
      (shapeCast S4x4096x64 (extractStridedSlice S16384x64 ![0, 0] (joined Xk Xv Wk bk Wv bv) slices_S16384x128_S16384x64_0_0)
        shapeCasts_S16384x64_S4x4096x64)
      (shapeCast S4x4096x64 (extractStridedSlice S16384x64 ![0, 64] (joined Xk Xv Wk bk Wv bv) slices_S16384x128_S16384x64_0_64)
        shapeCasts_S16384x64_S4x4096x64)
      = Attention.result Xq Xk Xv Wq bq Wk bk Wv bv := by
  funext i
  show attnEntry Xq Wq _ _ _ (i 0) (i 1) (i 2) = Attention.after Xq Xk Xv Wq bq Wk bk Wv bv (i 0) (i 1) (i 2)
  unfold attnEntry Attention.after Attention.rowScores
  refine congrArg₂ (Softmax.attnAfter ⊥) ?_ (funext fun j => valueRows_apply Xk Xv Wk bk Wv bv (i 0) j (i 2))
  refine congrArg₂ (Softmax.scores Attention.eighth) (funext fun d => ?_)
    (funext fun j => funext fun d => keyRows_apply Xk Xv Wk bk Wv bv (i 0) j d)
  unfold Attention.proj
  exact congrArg ((∑ m : Fin 768, Xq (ix3 (i 0) (i 1) m) * Wq (ix2 m d)) + ·) (biasRow_apply bq d)

end Cert.KernelIdeal.Arrays

end
-- ==== Proof.KernelRun.lean ====
/-
  The idealized kernel's run with its result named.

  @main is a stretch of four host re-layouts, the first region, a stretch of five host cuts and re-layouts, and the
  second region.  Every weakly fair execution ends with each buffer at the contents obtained by folding these four
  steps over the launch memory.  Read at the result buffer, the fold is the second region's array of what the second
  stretch leaves, which is cut from the first region's array of what the first stretch leaves: the specification's
  result of the nine argument arrays.
-/
import proofs.«136614_j29643864277600_2_alg».proof.Proof.Gen.KernelIdeal.Frame
import proofs.«136614_j29643864277600_2_alg».proof.Proof.WholeArray
import Idealize.ShloMosaic.Lib.StableHlo.Run

set_option maxRecDepth 16384

noncomputable section

namespace Cert.KernelIdeal.Whole

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Arrays

local notation "𝕄" => MT nD τ sig Unit (Elt Ideal) ℕ (UR sig nD τ) ℕ

variable (m : (ℓ : Loc nD τ sig) → Buf (Elt Ideal) ℓ) (ρ : Dev nD → PrngReg)

/-! ## What the first region finds -/

theorem in0_keys (c : Dev nD) : V1 m ρ c main_v0
    = shapeCast S16384x768 (m ((c : Thread nD τ).loc main_arg1)) shapeCasts_S4x4096x768_S16384x768 := by
  show StableHlo.after hostOps0 (W0 m ρ c) (Proc.devRef .tc main_v0) = _
  after_results
  rfl

theorem in0_values (c : Dev nD) : V1 m ρ c main_v1
    = shapeCast S16384x768 (m ((c : Thread nD τ).loc main_arg2)) shapeCasts_S4x4096x768_S16384x768 := by
  show StableHlo.after hostOps0 (W0 m ρ c) (Proc.devRef .tc main_v1) = _
  after_results
  rfl

theorem in0_bk (c : Dev nD) : V1 m ρ c main_v2 = shapeCast S1x64 (m ((c : Thread nD τ).loc main_arg6)) shapeCasts_S64_S1x64 := by
  show StableHlo.after hostOps0 (W0 m ρ c) (Proc.devRef .tc main_v2) = _
  after_results
  rfl

theorem in0_bv (c : Dev nD) : V1 m ρ c main_v3 = shapeCast S1x64 (m ((c : Thread nD τ).loc main_arg8)) shapeCasts_S64_S1x64 := by
  show StableHlo.after hostOps0 (W0 m ρ c) (Proc.devRef .tc main_v3) = _
  after_results
  rfl

theorem in0_Wk (c : Dev nD) : V1 m ρ c main_arg5 = m ((c : Thread nD τ).loc main_arg5) := by
  show StableHlo.after hostOps0 (W0 m ρ c) (Proc.devRef .tc main_arg5) = _
  after_results

theorem in0_Wv (c : Dev nD) : V1 m ρ c main_arg7 = m ((c : Thread nD τ).loc main_arg7) := by
  show StableHlo.after hostOps0 (W0 m ρ c) (Proc.devRef .tc main_arg7) = _
  after_results

/-- The first region's array after the region: the joined projections of the launch memory's keys and values. -/
theorem joined_eq (c : Dev nD) : W2 m ρ c (Proc.devRef .tc main_v4)
    = joined (m ((c : Thread nD τ).loc main_arg1)) (m ((c : Thread nD τ).loc main_arg2)) (m ((c : Thread nD τ).loc main_arg5))
        (m ((c : Thread nD τ).loc main_arg6)) (m ((c : Thread nD τ).loc main_arg7)) (m ((c : Thread nD τ).loc main_arg8)) := by
  refine (W2_arr m ρ c 6).trans ((kv_final (V1 m ρ) c).trans ?_)
  rw [in0_keys, in0_values, in0_bk, in0_bv, in0_Wk, in0_Wv]

/-! ## What the second region finds -/

/-- A buffer neither stretch writes and the first region does not own holds its launch contents when the second
    region starts. -/
theorem in1_queries (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results

theorem in1_Wq (c : Dev nD) : V3 m ρ c main_arg3 = m ((c : Thread nD τ).loc main_arg3) := by
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

theorem in1_bq (c : Dev nD) : V3 m ρ c main_v9 = shapeCast S1x64 (m ((c : Thread nD τ).loc main_arg4)) shapeCasts_S64_S1x64 := by
  show StableHlo.after hostOps1 (W2 m ρ c) (Proc.devRef .tc main_v9) = _
  after_results
  refine congrArg (shapeCast S1x64 · shapeCasts_S64_S1x64) ?_
  refine (W2_of_ne m ρ c main_arg4 (by decide)).trans ?_
  show StableHlo.after hostOps0 (W0 m ρ c) (Proc.devRef .tc main_arg4) = _
  after_results

theorem in1_keys (c : Dev nD) : V3 m ρ c main_v7
    = shapeCast S4x4096x64 (extractStridedSlice S16384x64 ![0, 0] (W2 m ρ c (Proc.devRef .tc main_v4)) slices_S16384x128_S16384x64_0_0)
        shapeCasts_S16384x64_S4x4096x64 := by
  show StableHlo.after hostOps1 (W2 m ρ c) (Proc.devRef .tc main_v7) = _
  after_results
  rfl

theorem in1_values (c : Dev nD) : V3 m ρ c main_v8
    = shapeCast S4x4096x64 (extractStridedSlice S16384x64 ![0, 64] (W2 m ρ c (Proc.devRef .tc main_v4)) slices_S16384x128_S16384x64_0_64)
        shapeCasts_S16384x64_S4x4096x64 := by
  show StableHlo.after hostOps1 (W2 m ρ c) (Proc.devRef .tc main_v8) = _
  after_results
  rfl

/-! ## The result buffer after the run -/

/-- THE RESULT: the fold at @main's result buffer is the specification's result of the launch memory's arguments. -/
theorem result_eq (c : Dev nD) : W4 m ρ c (Proc.devRef .tc main_v10)
    = Attention.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 5).trans ((attn_final (V3 m ρ) c).trans ?_)
  rw [in1_queries, in1_Wq, in1_bq, in1_keys, in1_values, joined_eq]
  exact whole_eq _ _ _ _ _ _ _ _ _

-- the launch theorem's implicit arguments are found by unifying its conclusion with this one, which takes unfolding
-- plain definitions in a metavariable's type
set_option backward.isDefEq.respectTransparency.types false in
/-- THE RUN: every weakly fair execution of @main terminates, nothing faulting, with the result buffer at the fold's
    contents there and the nine argument arrays as launched. -/
theorem run_fold : θ_run defs (onTc (τ := τ) (main (F := Ideal))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- THE KERNEL'S VALUE: the run with the result at the specification's result of the arguments. -/
theorem run : θ_run defs (onTc (τ := τ) (main (F := Ideal))) ⟨m, fun _ => 0, ρ⟩ (fun r => ∀ c : Dev nD,
      r.2.mem ((c.tc : Thread nD τ).loc main_v10)
        = Attention.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_fold m ρ)

end Cert.KernelIdeal.Whole

end
-- ==== Proof.ReferenceRows.lean ====
/-
  The reference program, read entry by entry, is projected scaled dot-product attention with every weight divided by
  the sum of the weights before the weighted sum of the values.

  The reference projects the queries, keys and values (a matrix product plus a bias broadcast along the two leading
  axes), multiplies the query-key products by `1 / sqrt 64`, subtracts each row's largest score, exponentiates, divides
  every exponential by its row's sum, and contracts the quotients with the projected values.  Each of these arrays is
  read here at explicit coordinates `(b, n, ·)` and identified with the corresponding piece of the specification; no
  entry needs to be finite for this, since the two texts perform the same operations in the same order.
-/
import proofs.«136614_j29643864277600_2_alg».proof.Proof.Gen.ReferenceIdeal.Read
import proofs.«136614_j29643864277600_2_alg».proof.Proof.Attention

noncomputable section

namespace Cert.ReferenceRows

open Idealize.ShloMosaic Idealize.ShloMosaic.ValueIdx
open Cert.ReferenceIdeal Cert.ReferenceIdeal.Gen Cert.ReferenceIdeal.Read Cert.Attention

variable (x0 x1 x2 : SX.Idx → EReal) (x3 : SW.Idx → EReal) (x4 : SB.Idx → EReal) (x5 : SW.Idx → EReal)
  (x6 : SB.Idx → EReal) (x7 : SW.Idx → EReal) (x8 : SB.Idx → EReal)

/-! ## The three projections -/

/-- The first projection at `(b, n, e)`: the product's sum over the 768 input features plus the bias at `e` (the bias is
    laid along the last axis and repeated along the other two). -/
theorem proj_first (X : SX.Idx → EReal) (W : SW.Idx → EReal) (β : SB.Idx → EReal) (b : Fin 4) (n : Fin 4096) (e : Fin 64) :
    val_main_v3 (F := Ideal) X W β (ix3 b n e) = proj X W β b n e := by
  have hl : ∀ k : Fin 768, lidx_main_v0 (ix3 b n e) k = ix3 b n k := fun k =>
    funext fun a => Fin.ext (by match a with | ⟨0, _⟩ => rfl | ⟨1, _⟩ => rfl | ⟨2, _⟩ => rfl)
  have hr : ∀ k : Fin 768, ridx_main_v0 (ix3 b n e) k = ix2 k e := fun k =>
    funext fun a => Fin.ext (by match a with | ⟨0, _⟩ => rfl | ⟨1, _⟩ => rfl)
  have hb : idx_main_v1 (idx_main_v2 (ix3 b n e)) = ix1 e :=
    funext fun a => Fin.ext (by match a with | ⟨0, _⟩ => rfl)
  refine (val_main_v3_apply (F := Ideal) X W β (ix3 b n e)).trans ?_
  show val_main_v0 (F := Ideal) X W (ix3 b n e) + val_main_v2 (F := Ideal) β (ix3 b n e) = _
  rw [val_main_v0_apply, val_main_v2_apply, val_main_v1_apply, hb]
  unfold proj
  exact congrArg (· + β (ix1 e)) (Finset.sum_congr rfl fun k _ => by rw [hl k, hr k])

/-- The second and third projections are the same operations on other arguments. -/
theorem proj_second (X : SX.Idx → EReal) (W : SW.Idx → EReal) (β : SB.Idx → EReal) (b : Fin 4) (n : Fin 4096) (e : Fin 64) :
    val_main_v7 (F := Ideal) X W β (ix3 b n e) = proj X W β b n e :=
  proj_first X W β b n e

theorem proj_third (X : SX.Idx → EReal) (W : SW.Idx → EReal) (β : SB.Idx → EReal) (b : Fin 4) (n : Fin 4096) (e : Fin 64) :
    val_main_v11 (F := Ideal) X W β (ix3 b n e) = proj X W β b n e :=
  proj_first X W β b n e

/-! ## The scale -/

/-- Every entry of the broadcast scale is `1 / sqrt 64`, one eighth. -/
theorem scale_apply (i : S4x4096x4096.Idx) : val_main_v15 (F := Ideal) i = eighth := by
  refine (val_main_v15_apply (F := Ideal) i).trans ?_
  show Ideal.div (Ideal.ofBits .f32 0x3F800000#32) (Ideal.sqrt (Ideal.ofBits .f32 0x42800000#32)) = eighth
  exact one_div_sqrt_64

/-! ## The scores -/

/-- The scaled scores at `(b, n, j)`: the product of query row `n` with key row `j` over the 64 features, times one
    eighth. -/
theorem scores_apply (b : Fin 4) (n j : Fin 4096) :
    val_main_v16 (F := Ideal) x0 x1 x3 x4 x5 x6 (ix3 b n j) = rowScores x0 x1 x3 x4 x5 x6 b n j := by
  have hl : ∀ k : Fin 64, lidx_main_v14 (ix3 b n j) k = ix3 b n k := fun k =>
    funext fun a => Fin.ext (by match a with | ⟨0, _⟩ => rfl | ⟨1, _⟩ => rfl | ⟨2, _⟩ => rfl)
  have hr : ∀ k : Fin 64, ridx_main_v14 (ix3 b n j) k = ix3 b j k := fun k =>
    funext fun a => Fin.ext (by match a with | ⟨0, _⟩ => rfl | ⟨1, _⟩ => rfl | ⟨2, _⟩ => rfl)
  refine (val_main_v16_apply (F := Ideal) x0 x1 x3 x4 x5 x6 (ix3 b n j)).trans ?_
  show val_main_v14 (F := Ideal) x0 x1 x3 x4 x5 x6 (ix3 b n j) * val_main_v15 (F := Ideal) (ix3 b n j) = _
  rw [scale_apply, val_main_v14_apply]
  unfold rowScores Softmax.scores
  exact congrArg (· * eighth) (Finset.sum_congr rfl fun k _ => by
    rw [hl k, hr k, proj_first, proj_second])

/-! ## The row maximum -/

/-- Putting coordinate `k` back on the last axis of the two-coordinate index `(p, q)` gives `(p, q, k)`. -/
theorem lift_last {a b c : ℕ} (h : Shape.Reduces ⟨3, ![a, b, c]⟩ [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- A reduction over the last axis of an `[a, b, c]` array by a commutative, associative operation, at `(p, q)`: the
    fold over the `c` entries of that row from the initial value. -/
theorem foldLast_apply {α : Type} {a b c : ℕ} {u : Shape} (f : α → α → α) [Std.Commutative f] [Std.Associative f]
    (x : (⟨3, ![a, b, c]⟩ : Shape).Idx → α) (init : u.Idx → α) (h' : Shape.ReducesTo ⟨3, ![a, b, c]⟩ [2] ⟨2, ![a, b]⟩)
    (h : Shape.Reduces ⟨3, ![a, b, c]⟩ [2] ⟨2, ![a, b]⟩) (hu : 0 < u.numel) (p : Fin a) (q : Fin b) :
    Host.reduce f x init h' hu (ix2 p q)
      = (Finset.univ : Finset (Fin c)).fold f (init (Shape.Idx.first hu)) (fun k => x (ix3 p q k)) :=
  (Host.reduce_eq_fold_single f x init h' h hu (ix2 p q)).trans
    (congrArg (Finset.fold f (init (Shape.Idx.first hu)) · (Finset.univ : Finset (Fin c)))
      (funext fun k => congrArg x (lift_last h p q k)))

/-- The row maximum at `(b, n)`: the largest score of the row, folded from `-∞`. -/
theorem rowMax_apply (b : Fin 4) (n : Fin 4096) :
    val_main_v17 (F := Ideal) x0 x1 x3 x4 x5 x6 (ix2 b n) = Softmax.top ⊥ (rowScores x0 x1 x3 x4 x5 x6 b n) := by
  have h : S4x4096x4096.Reduces [2] S4x4096 := by decide
  unfold val_main_v17
  refine (foldLast_apply (FloatOps.maximumf (F := Ideal) (φ := .f32)) (val_main_v16 (F := Ideal) x0 x1 x3 x4 x5 x6)
    (val_main_cst_1 (F := Ideal)) reducesTo_S4x4096x4096_S4x4096_d2 h h_S_ b n).trans ?_
  have hi : val_main_cst_1 (F := Ideal) (Shape.Idx.first h_S_) = (⊥ : EReal) := ofBits_neg_inf
  have hs : (fun k : Fin 4096 => val_main_v16 (F := Ideal) x0 x1 x3 x4 x5 x6 (ix3 b n k)) = rowScores x0 x1 x3 x4 x5 x6 b n :=
    funext fun k => scores_apply x0 x1 x3 x4 x5 x6 b n k
  rw [hi, hs]
  rfl

/-- Taking the maximum of `-∞` with the row maximum changes nothing. -/
theorem rowTop_apply (b : Fin 4) (n : Fin 4096) :
    val_main_v19 (F := Ideal) x0 x1 x3 x4 x5 x6 (ix2 b n) = Softmax.top ⊥ (rowScores x0 x1 x3 x4 x5 x6 b n) := by
  refine (val_main_v19_apply (F := Ideal) x0 x1 x3 x4 x5 x6 (ix2 b n)).trans ?_
  have hi : val_main_v18 (F := Ideal) (ix2 b n) = (⊥ : EReal) :=
    (val_main_v18_apply (F := Ideal) (ix2 b n)).trans ofBits_neg_inf
  show max (val_main_v18 (F := Ideal) (ix2 b n)) (val_main_v17 (F := Ideal) x0 x1 x3 x4 x5 x6 (ix2 b n)) = _
  rw [hi, rowMax_apply]
  exact Softmax.max_top ⊥ _

/-- The row maximum repeated along the row. -/
theorem rowTop_bcast (b : Fin 4) (n j : Fin 4096) :
    val_main_v21 (F := Ideal) x0 x1 x3 x4 x5 x6 (ix3 b n j) = Softmax.top ⊥ (rowScores x0 x1 x3 x4 x5 x6 b n) := by
  have hb : idx_main_v20 (idx_main_v21 (ix3 b n j)) = ix2 b n :=
    funext fun a => Fin.ext (by match a with | ⟨0, _⟩ => rfl | ⟨1, _⟩ => rfl)
  rw [val_main_v21_apply, val_main_v20_apply, hb]
  exact rowTop_apply x0 x1 x3 x4 x5 x6 b n

/-! ## The weights and their sum -/

/-- The unnormalised weight at `(b, n, j)`: the exponential of the score less the row maximum. -/
theorem weight_apply (b : Fin 4) (n j : Fin 4096) :
    val_main_v23 (F := Ideal) x0 x1 x3 x4 x5 x6 (ix3 b n j) = Softmax.weight ⊥ (rowScores x0 x1 x3 x4 x5 x6 b n) j := by
  refine (val_main_v23_apply (F := Ideal) x0 x1 x3 x4 x5 x6 (ix3 b n j)).trans ?_
  show Ideal.exp (val_main_v16 (F := Ideal) x0 x1 x3 x4 x5 x6 (ix3 b n j)
    - val_main_v21 (F := Ideal) x0 x1 x3 x4 x5 x6 (ix3 b n j)) = _
  rw [scores_apply, rowTop_bcast]
  rfl

/-- The row sum at `(b, n)`: the sum of the row's weights (the sum starts from zero). -/
theorem rowSum_apply (b : Fin 4) (n : Fin 4096) :
    val_main_v24 (F := Ideal) x0 x1 x3 x4 x5 x6 (ix2 b n) = ∑ j : Fin 4096, Softmax.weight ⊥ (rowScores x0 x1 x3 x4 x5 x6 b n) j := by
  have hk : ∀ k : Fin 4096, idx_main_v24 (ix2 b n) k = ix3 b n k := fun k =>
    funext fun a => Fin.ext (by match a with | ⟨0, _⟩ => rfl | ⟨1, _⟩ => rfl | ⟨2, _⟩ => rfl)
  have hz : val_main_cst_3 (F := Ideal) (Shape.Idx.first h_S_) = (0 : EReal) := Ideal.ofBits_zero_f32
  rw [val_main_v24_apply, hz, zero_add]
  exact Finset.sum_congr rfl fun k _ => by rw [hk k, weight_apply]

/-- The row sum repeated along the row. -/
theorem rowSum_bcast (b : Fin 4) (n j : Fin 4096) :
    val_main_v26 (F := Ideal) x0 x1 x3 x4 x5 x6 (ix3 b n j) = ∑ j' : Fin 4096, Softmax.weight ⊥ (rowScores x0 x1 x3 x4 x5 x6 b n) j' := by
  have hb : idx_main_v25 (idx_main_v26 (ix3 b n j)) = ix2 b n :=
    funext fun a => Fin.ext (by match a with | ⟨0, _⟩ => rfl | ⟨1, _⟩ => rfl)
  rw [val_main_v26_apply, val_main_v25_apply, hb]
  exact rowSum_apply x0 x1 x3 x4 x5 x6 b n

/-- The normalised weight at `(b, n, j)`: the weight divided by the row sum. -/
theorem normWeight_apply (b : Fin 4) (n j : Fin 4096) :
    val_main_v27 (F := Ideal) x0 x1 x3 x4 x5 x6 (ix3 b n j)
      = Ideal.div (Softmax.weight ⊥ (rowScores x0 x1 x3 x4 x5 x6 b n) j)
          (∑ j' : Fin 4096, Softmax.weight ⊥ (rowScores x0 x1 x3 x4 x5 x6 b n) j') := by
  refine (val_main_v27_apply (F := Ideal) x0 x1 x3 x4 x5 x6 (ix3 b n j)).trans ?_
  show Ideal.div (val_main_v23 (F := Ideal) x0 x1 x3 x4 x5 x6 (ix3 b n j))
    (val_main_v26 (F := Ideal) x0 x1 x3 x4 x5 x6 (ix3 b n j)) = _
  rw [weight_apply, rowSum_bcast]

/-! ## The result -/

/-- The result at `(b, n, e)`: the normalised weights of row `n` contracted with column `e` of the projected values. -/
theorem result_apply (b : Fin 4) (n : Fin 4096) (e : Fin 64) :
    val_main_v28 (F := Ideal) x0 x1 x2 x3 x4 x5 x6 x7 x8 (ix3 b n e) = before x0 x1 x2 x3 x4 x5 x6 x7 x8 b n e := by
  have hl : ∀ k : Fin 4096, lidx_main_v28 (ix3 b n e) k = ix3 b n k := fun k =>
    funext fun a => Fin.ext (by match a with | ⟨0, _⟩ => rfl | ⟨1, _⟩ => rfl | ⟨2, _⟩ => rfl)
  have hr : ∀ k : Fin 4096, ridx_main_v28 (ix3 b n e) k = ix3 b k e := fun k =>
    funext fun a => Fin.ext (by match a with | ⟨0, _⟩ => rfl | ⟨1, _⟩ => rfl | ⟨2, _⟩ => rfl)
  rw [val_main_v28_apply]
  unfold before Softmax.attnBefore
  exact Finset.sum_congr rfl fun k _ => by rw [hl k, hr k, normWeight_apply, proj_third]

/-- The reference's result array is the specification's second arrangement, entry by entry. -/
theorem val_eq :
    val_main_v28 (F := Ideal) x0 x1 x2 x3 x4 x5 x6 x7 x8
      = fun i => before x0 x1 x2 x3 x4 x5 x6 x7 x8 (i 0) (i 1) (i 2) :=
  funext fun i =>
    (congrArg (val_main_v28 (F := Ideal) x0 x1 x2 x3 x4 x5 x6 x7 x8) (eq_ix3 i)).trans
      (result_apply x0 x1 x2 x3 x4 x5 x6 x7 x8 (i 0) (i 1) (i 2))

end Cert.ReferenceRows

end
-- ==== Proof.RealInputs.lean ====
/-
  The precondition says of each of the nine argument arrays that the absolute value of every entry is below plus
  infinity.  Over the extended reals the absolute value of x is max x (-x); it is below the top element exactly when x is
  neither the top nor the bottom element, that is, when x is a real number.  So each argument array is an array of reals.
-/
import Idealize.ShloMosaic.Lib.ReduceAll
import Idealize.ShloMosaic.Lib.IdealHost
import proofs.«136614_j29643864277600_2_alg».proof.Defs
import proofs.«136614_j29643864277600_2_alg».proof.Proof.Attention

noncomputable section

namespace Cert.RealInputs

open Idealize.ShloMosaic Idealize.ShloMosaic.ValueIdx Idealize.SL.Sem

/-- The shape of a scalar has exactly one index. -/
instance : Subsingleton (⟨0, ![]⟩ : Shape).Idx := ⟨fun a b => funext fun d => d.elim0⟩

/-- An extended real whose absolute value is below the top element is a real number: at the top element the maximum
    of x and -x is the top, at the bottom element -x is the top, and neither is below the top. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: if the comparison of |x| with the word of plus infinity answers one, x is real. -/
theorem real_of_cmp (hinf : Ideal.ofBits .f32 0x7F800000#32 = (⊤ : EReal)) (x : EReal)
    (h : Ideal.cmp .olt (max x (-x)) (Ideal.ofBits .f32 0x7F800000#32) = 1#1) : ∃ r : ℝ, x = (r : EReal) := by
  rw [hinf] at h
  refine real_of_abs_lt_top x ?_
  by_contra hn
  simp [Ideal.cmp, hn] at h

/-- A whole array, of any shape: if the conjunction over all entries of "|x| is below plus infinity" is one, every
    entry is real. -/
theorem isReal_of_all (hinf : Ideal.ofBits .f32 0x7F800000#32 = (⊤ : EReal)) {s : Shape} {axes : List (Fin s.rank)}
    (X : FVec Ideal s .f32) (hb : (⟨0, ![]⟩ : Shape).BroadcastsInDim s (![] : Fin 0 → Fin s.rank))
    (hr : s.ReducesTo axes ⟨0, ![]⟩) (h0 : 0 < (⟨0, ![]⟩ : Shape).numel) (init : IVec ⟨0, ![]⟩ 1)
    (e : Host.reduce IntOp.andi (cmpf .olt (Host.absf X) (broadcastInDim s ![] hb (constant ⟨0, ![]⟩ .f32 0x7F800000#32)))
      init hr h0 ix0 = 1#1) :
    Cert.Attention.IsReal (s := s) X := by
  intro i
  have hi := Host.reduce_andi_all _ init hr h0 ix0 e i
  exact real_of_cmp hinf (X i) hi

/-- Under the precondition each of the nine argument arrays of the idealized kernel is an array of reals. -/
theorem of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Attention.IsReal (m ((c.tc : Thread Cert.KernelIdeal.nD Cert.KernelIdeal.τ).loc Cert.KernelIdeal.main_arg0))
    ∧ Cert.Attention.IsReal (m ((c.tc : Thread Cert.KernelIdeal.nD Cert.KernelIdeal.τ).loc Cert.KernelIdeal.main_arg1))
    ∧ Cert.Attention.IsReal (m ((c.tc : Thread Cert.KernelIdeal.nD Cert.KernelIdeal.τ).loc Cert.KernelIdeal.main_arg2))
    ∧ Cert.Attention.IsReal (m ((c.tc : Thread Cert.KernelIdeal.nD Cert.KernelIdeal.τ).loc Cert.KernelIdeal.main_arg3))
    ∧ Cert.Attention.IsReal (m ((c.tc : Thread Cert.KernelIdeal.nD Cert.KernelIdeal.τ).loc Cert.KernelIdeal.main_arg4))
    ∧ Cert.Attention.IsReal (m ((c.tc : Thread Cert.KernelIdeal.nD Cert.KernelIdeal.τ).loc Cert.KernelIdeal.main_arg5))
    ∧ Cert.Attention.IsReal (m ((c.tc : Thread Cert.KernelIdeal.nD Cert.KernelIdeal.τ).loc Cert.KernelIdeal.main_arg6))
    ∧ Cert.Attention.IsReal (m ((c.tc : Thread Cert.KernelIdeal.nD Cert.KernelIdeal.τ).loc Cert.KernelIdeal.main_arg7))
    ∧ Cert.Attention.IsReal (m ((c.tc : Thread Cert.KernelIdeal.nD Cert.KernelIdeal.τ).loc Cert.KernelIdeal.main_arg8)) := by
  -- the precondition at the one index of its scalar result, with the printed function opened
  have e := congrFun (h c) ix0
  unfold Cert.Pre_finite_inputs.fn Cert.Pre_finite_inputs.fn_part1 Cert.Pre_finite_inputs.fn_part2 at e
  dsimp only at e
  -- a conjunction of bits is one exactly when every bit is one
  simp only [andi, IntOp.andi_eq_one] at e
  obtain ⟨⟨⟨⟨⟨⟨⟨⟨e0, e1⟩, e2⟩, e3⟩, e4⟩, e5⟩, e6⟩, e7⟩, e8⟩ := e
  exact ⟨isReal_of_all Cert.Attention.ofBits_pos_inf _ _ _ _ _ e0, isReal_of_all Cert.Attention.ofBits_pos_inf _ _ _ _ _ e1, isReal_of_all Cert.Attention.ofBits_pos_inf _ _ _ _ _ e2,
    isReal_of_all Cert.Attention.ofBits_pos_inf _ _ _ _ _ e3, isReal_of_all Cert.Attention.ofBits_pos_inf _ _ _ _ _ e4, isReal_of_all Cert.Attention.ofBits_pos_inf _ _ _ _ _ e5,
    isReal_of_all Cert.Attention.ofBits_pos_inf _ _ _ _ _ e6, isReal_of_all Cert.Attention.ofBits_pos_inf _ _ _ _ _ e7, isReal_of_all Cert.Attention.ofBits_pos_inf _ _ _ _ _ e8⟩

end Cert.RealInputs

end
-- ==== Proof.lean ====
/-
  A fused attention kernel against plain jnp attention, equal as extended reals.

  Both programs project queries, keys and values `[4, 4096, 768]` to 64 features (a matrix product plus a bias), score
  every query row against the 4096 key rows of its batch, scale by one eighth, and take the softmax-weighted sum of the
  value rows.  The kernel does it in two regions — one writes the key and value projections side by side, the other
  projects a block of query rows, forms the weights `exp (s − max s)` and divides the weighted sum of the values by the sum
  of the weights AFTER the product — while the reference divides every weight BEFORE it.  At the ideal values the
  narrowing of factors before a product is the identity, a product is an exact sum, the kernel's `0.125` is the
  reference's `1 / sqrt 64`, and over REAL entries — which the precondition gives — division distributes over the
  weighted sum; so the two result arrays agree entry by entry.  The frames are the generated ones; the idealization rewrote
  nothing.
-/
import proofs.«136614_j29643864277600_2_alg».proof.Defs
import proofs.«136614_j29643864277600_2_alg».proof.Proof.Gen.Kernel
import proofs.«136614_j29643864277600_2_alg».proof.Proof.Gen.Kernel.Skeleton
import proofs.«136614_j29643864277600_2_alg».proof.Proof.Gen.Kernel.Launch
import proofs.«136614_j29643864277600_2_alg».proof.Proof.Gen.Kernel.Points
import proofs.«136614_j29643864277600_2_alg».proof.Proof.Gen.Kernel.Frame
import proofs.«136614_j29643864277600_2_alg».proof.Proof.Gen.KernelIdeal
import proofs.«136614_j29643864277600_2_alg».proof.Proof.Gen.KernelIdeal.Skeleton
import proofs.«136614_j29643864277600_2_alg».proof.Proof.Gen.KernelIdeal.Launch
import proofs.«136614_j29643864277600_2_alg».proof.Proof.Gen.KernelIdeal.Points
import proofs.«136614_j29643864277600_2_alg».proof.Proof.Gen.KernelIdeal.Frame
import proofs.«136614_j29643864277600_2_alg».proof.Proof.Gen.ReferenceIdeal
import proofs.«136614_j29643864277600_2_alg».proof.Proof.Gen.Pre_finite_inputs
import proofs.«136614_j29643864277600_2_alg».proof.Proof.Gen.ReferenceIdeal.Run
import proofs.«136614_j29643864277600_2_alg».proof.Proof.Gen.ReferenceIdeal.Read
import proofs.«136614_j29643864277600_2_alg».proof.Proof.KernelRun
import proofs.«136614_j29643864277600_2_alg».proof.Proof.ReferenceRows
import proofs.«136614_j29643864277600_2_alg».proof.Proof.RealInputs
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments, all of them real, both programs end with the same result array: the
    kernel's is the attention with the division after the weighted sum, the reference's the attention with every weight
    divided before it, and over real entries the two are one number at every index. -/
theorem algebraic : Cert.algebraic_KernelIdeal_ReferenceIdeal := by
  intro m ρ m' ρ' hpre hagree
  refine ⟨fun c => Cert.Attention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r5, r6, r7, r8⟩ := Cert.RealInputs.of_pre m hpre c
  refine (Cert.ReferenceIdeal.Read.val_main_v28_eq (F := Ideal) m' c).trans ?_
  rw [a0, a1, a2, a3, a4, a5, a6, a7, a8]
  refine (Cert.ReferenceRows.val_eq _ _ _ _ _ _ _ _ _).trans ?_
  funext i
  exact (Cert.Attention.after_eq_before r0 r1 r2 r3 r4 r5 r6 r7 r8 (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
